-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S2048x768 .f32 .bf16
  ∧ IdealRules.truncf_extf.Statement Cert.KernelIdeal.S2048x768 .f32 .bf16
  ∧ IdealRules.truncf_extf.Statement Cert.KernelIdeal.S512x768 .f32 .bf16
  ∧ IdealRules.truncf_extf.Statement Cert.KernelIdeal.S512x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768x768 : Shape := ⟨2, ![768, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x768 .f32) (main_arg5 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x2048x768 .f32) (main_arg1 : FVec F S8x2048x768 .f32) (main_arg2 : FVec F S768x768 .f32) (main_arg3 : FVec F S768 .f32) (main_arg4 : FVec F S768x768 .f32) (main_arg5 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S8x2048x768 : Shape := ⟨3, ![8, 2048, 768]⟩
abbrev S768x768 : Shape := ⟨2, ![768, 768]⟩
abbrev S768 : Shape := ⟨1, ![768]⟩
abbrev S8x1x2048 : Shape := ⟨3, ![8, 1, 2048]⟩
abbrev S1x512x768 : Shape := ⟨3, ![1, 512, 768]⟩
abbrev S1x2048x768 : Shape := ⟨3, ![1, 2048, 768]⟩
abbrev S1x1x2048 : Shape := ⟨3, ![1, 1, 2048]⟩
abbrev S2048x768 : Shape := ⟨2, ![2048, 768]⟩
abbrev S1x2048 : Shape := ⟨2, ![1, 2048]⟩
abbrev S1x768 : Shape := ⟨2, ![1, 768]⟩
abbrev S512x768 : Shape := ⟨2, ![512, 768]⟩
abbrev S512x2048 : Shape := ⟨2, ![512, 2048]⟩
abbrev S2048 : Shape := ⟨1, ![2048]⟩
abbrev S8x2048 : Shape := ⟨2, ![8, 2048]⟩

abbrev nBuf : Space → Nat
  | .hbm => 16
  | .vmem => 15
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .bf16⟩
  | .hbm, ⟨7, _⟩ => ⟨S768x768, .f32⟩
  | .hbm, ⟨8, _⟩ => ⟨S768x768, .f32⟩
  | .hbm, ⟨9, _⟩ => ⟨S768x768, .bf16⟩
  | .hbm, ⟨10, _⟩ => ⟨S768x768, .bf16⟩
  | .hbm, ⟨11, _⟩ => ⟨S768x768, .f32⟩
  | .hbm, ⟨12, _⟩ => ⟨S768x768, .f32⟩
  | .hbm, ⟨13, _⟩ => ⟨S768x768, .bf16⟩
  | .hbm, ⟨14, _⟩ => ⟨S8x1x2048, .f32⟩
  | .hbm, ⟨15, _⟩ => ⟨S8x2048, .f32⟩
  | .local _ .vmem, ⟨0, _⟩ => ⟨S1x512x768, .f32⟩
  | .local _ .vmem, ⟨1, _⟩ => ⟨S1x512x768, .f32⟩
  | .local _ .vmem, ⟨2, _⟩ => ⟨S1x2048x768, .f32⟩
  | .local _ .vmem, ⟨3, _⟩ => ⟨S768x768, .bf16⟩
  | .local _ .vmem, ⟨4, _⟩ => ⟨S768x768, .bf16⟩
  | .local _ .vmem, ⟨5, _⟩ => ⟨S768, .f32⟩
  | .local _ .vmem, ⟨6, _⟩ => ⟨S768x768, .bf16⟩
  | .local _ .vmem, ⟨7, _⟩ => ⟨S768x768, .bf16⟩
  | .local _ .vmem, ⟨8, _⟩ => ⟨S768, .f32⟩
  | .local _ .vmem, ⟨9, _⟩ => ⟨S1x1x2048, .f32⟩
  | .local _ .vmem, ⟨10, _⟩ => ⟨S1x1x2048, .f32⟩
  | .local _ .vmem, ⟨11, _⟩ => ⟨S2048x768, .bf16⟩
  | .local _ .vmem, ⟨12, _⟩ => ⟨S2048x768, .bf16⟩
  | .local _ .vmem, ⟨13, _⟩ => ⟨S1x2048, .f32⟩
  | .local _ .vmem, ⟨14, _⟩ => ⟨S1x2048, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_27 : BitVec 32 := 0#32
  let v52 : BitVec 1 := Scalar.cmpi .ne v51 c0_i32_27
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S2048x768 : S1x768.Broadcasts S2048x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  packedbf16_S2048x768_S2048x768_0_0 : (Rect.unit (s := S2048x768) ![0, 0] S2048x768.size inb_S2048x768_S2048x768_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  broadcasts_S1x768_S512x768 : S1x768.Broadcasts S512x768
  reduces_S512x2048_S2048 : S512x2048.Reduces [0] S2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S8x1x2048_S8x2048 : S8x1x2048.ShapeCasts S8x2048
  dot_S2048x768_S768x768_S2048x768_1_0_0_1_n_n_wf : DotDims.WF S2048x768 S768x768 S2048x768 [1] [0] [0] [1] [] []
  dot_S512x768_S768x768_S512x768_1_0_0_1_n_n_wf : DotDims.WF S512x768 S768x768 S512x768 [1] [0] [0] [1] [] []
  dot_S512x768_S2048x768_S512x2048_1_1_0_0_n_n_wf : DotDims.WF S512x768 S2048x768 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x2048x768.size a
  hwx0_0 : ∀ i : grid0.Coords, EltTy.bits .f32 = 32 ∨ (Rect.block (s := S8x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S8x2048x768.size a
  hwx0_1 : ∀ i : grid0.Coords, EltTy.bits .f32 = 32 ∨ (Rect.block (s := S8x2048x768) S1x2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768.size a ≤ S768.size a
  hwx0_7 : ∀ i : grid0.Coords, EltTy.bits .f32 = 32 ∨ (Rect.block (s := S768) S768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048.size a ≤ S8x1x2048.size a
  hwx0_8 : ∀ i : grid0.Coords, EltTy.bits .f32 = 32 ∨ (Rect.block (s := S8x1x2048) S1x1x2048.size (cc0_transform_8 i) (hinb0_8 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S2048x768_S512x2048_1_1_0_0_n_n : DotDims S512x768 S2048x768 S512x2048 where
  lhsContracting := [1]
  rhsContracting := [1]
  lhsNonContracting := [0]
  rhsNonContracting := [0]
  lhsBatch := []
  rhsBatch := []
  wf := dot_S512x768_S2048x768_S512x2048_1_1_0_0_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8x2048x768 : Shape := ⟨3, ![8, 2048, 768]⟩
abbrev S768x768 : Shape := ⟨2, ![768, 768]⟩
abbrev S768 : Shape := ⟨1, ![768]⟩
abbrev S1x1x768 : Shape := ⟨3, ![1, 1, 768]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S8x2048x768, .f32⟩
  | .hbm, ⟨7, _⟩ => ⟨S1x1x768, .f32⟩
  | .hbm, ⟨8, _⟩ => ⟨S8x2048x768, .f32⟩
  | .hbm, ⟨9, _⟩ => ⟨S8x2048x768, .f32⟩
  | .hbm, ⟨10, _⟩ => ⟨S8x2048x768, .f32⟩
  | .hbm, ⟨11, _⟩ => ⟨S1x1x768, .f32⟩
  | .hbm, ⟨12, _⟩ => ⟨S8x2048x768, .f32⟩
  | .hbm, ⟨13, _⟩ => ⟨S8x2048x768, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x1x2048, .f32⟩
  | .hbm, ⟨20, _⟩ => ⟨S_, .f32⟩
  | .hbm, ⟨21, _⟩ => ⟨S8x1x2048, .f32⟩
  | .hbm, ⟨22, _⟩ => ⟨S8x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  reducesTo_S8x2048x2048_S8x2048_d1 : S8x2048x2048.ReducesTo [1] S8x2048
  h_S_ : 0 < S_.numel
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x2048x2048_0_1_2 : S8x1x2048.BroadcastsInDim S8x2048x2048 (![0, 1, 2] : Fin 3 → Fin S8x2048x2048.rank)
  dot_S8x2048x768_S768x768_S8x2048x768_2_0_01_1_n_n_wf : DotDims.WF S8x2048x768 S768x768 S8x2048x768 [2] [0] [0, 1] [1] [] []
  dot_S8x2048x768_S8x2048x768_S8x2048x2048_2_2_1_1_0_0_wf : DotDims.WF S8x2048x768 S8x2048x768 S8x2048x2048 [2] [2] [1] [1] [0] [0]

variable [Facts₀]

def dot_S8x2048x768_S768x768_S8x2048x768_2_0_01_1_n_n : DotDims S8x2048x768 S768x768 S8x2048x768 where
  lhsContracting := [2]
  rhsContracting := [0]
  lhsNonContracting := [0, 1]
  rhsNonContracting := [1]
  lhsBatch := []
  rhsBatch := []
  wf := dot_S8x2048x768_S768x768_S8x2048x768_2_0_01_1_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf

class Facts : Prop extends Facts₀ where

variable [Facts]
-- ==== Proof.Pieces.lean ====
import proofs.«119709_j28793460752827_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What each of the body's three control cases leaves behind, read back as values.  At the first query block of a batch the
    body projects the keys (their hi part and the remainder after it) into the two key scratches and starts the two running
    column sums from zero plus this block's contribution; at every later block the key scratches stay and the sums grow by
    the block's contribution; at the last block the output block is the quotient of the two finished sums. -/
namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The first query block of a batch -/

theorem keyHi_first (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768 .f32) (harg9 : arg9.IsWhole) (arg10 : Memref sig .tc .vmem S1x1x2048 .f32) (harg10 : arg10.IsWhole) (arg11 : Memref sig .tc .vmem S2048x768 .bf16) (harg11 : arg11.IsWhole) (arg12 : Memref sig .tc .vmem S2048x768 .bf16) (harg12 : arg12.IsWhole) (arg13 : Memref sig .tc .vmem S1x2048 .f32) (harg13 : arg13.IsWhole) (arg14 : Memref sig .tc .vmem S1x2048 .f32) (harg14 : arg14.IsWhole) (hc0 : cond0_0 i) (hc1 : ¬cond0_1 i) (x0 : Vec F S1x512x768 .f32) (x1 : Vec F S1x2048x768 .f32) (x2 : Vec F S768x768 .bf16) (x3 : Vec F S768x768 .bf16) (x4 : Vec F S768 .f32) (x5 : Vec F S768x768 .bf16) (x6 : Vec F S768x768 .bf16) (x7 : Vec F S768 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay5 x1 x5 x6 x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S2048x768) hz2]
  simp only [View.readCov_unit_zero (S := S2048x768) _ hz2, View.readCov_unit_zero (S := S1x2048) _ hz2, View.readAt_eq_ld,
    harg2.read_unread, harg3.read_unread, harg4.read_unread, harg5.read_unread, harg6.read_unread, harg7.read_unread,
    harg8.read_unread, harg9.read_unread, harg11.read_unread, harg12.read_unread, harg13.read_unread, harg14.read_unread,
    View.ld_unit_zero (S := S1x512x768) hz3, View.ld_unit_zero (S := S1x2048x768) hz3, View.ld_unit_zero (S := S768x768) hz2,
    View.ld_unit_zero (S := S768) hz1, View.ld_unit_zero (S := S2048x768) hz2, View.ld_unit_zero (S := S1x2048) hz2]

theorem keyLo_first (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768 .f32) (harg9 : arg9.IsWhole) (arg10 : Memref sig .tc .vmem S1x1x2048 .f32) (harg10 : arg10.IsWhole) (arg11 : Memref sig .tc .vmem S2048x768 .bf16) (harg11 : arg11.IsWhole) (arg12 : Memref sig .tc .vmem S2048x768 .bf16) (harg12 : arg12.IsWhole) (arg13 : Memref sig .tc .vmem S1x2048 .f32) (harg13 : arg13.IsWhole) (arg14 : Memref sig .tc .vmem S1x2048 .f32) (harg14 : arg14.IsWhole) (hc0 : cond0_0 i) (hc1 : ¬cond0_1 i) (x0 : Vec F S1x512x768 .f32) (x1 : Vec F S1x2048x768 .f32) (x2 : Vec F S768x768 .bf16) (x3 : Vec F S768x768 .bf16) (x4 : Vec F S768 .f32) (x5 : Vec F S768x768 .bf16) (x6 : Vec F S768x768 .bf16) (x7 : Vec F S768 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay6 x1 x5 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S2048x768) hz2]
  simp only [View.readCov_unit_zero (S := S2048x768) _ hz2, View.readCov_unit_zero (S := S1x2048) _ hz2, View.readAt_eq_ld,
    harg2.read_unread, harg3.read_unread, harg4.read_unread, harg5.read_unread, harg6.read_unread, harg7.read_unread,
    harg8.read_unread, harg9.read_unread, harg11.read_unread, harg12.read_unread, harg13.read_unread, harg14.read_unread,
    View.ld_unit_zero (S := S1x512x768) hz3, View.ld_unit_zero (S := S1x2048x768) hz3, View.ld_unit_zero (S := S768x768) hz2,
    View.ld_unit_zero (S := S768) hz1, View.ld_unit_zero (S := S2048x768) hz2, View.ld_unit_zero (S := S1x2048) hz2]

theorem sumW_first (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768 .f32) (harg9 : arg9.IsWhole) (arg10 : Memref sig .tc .vmem S1x1x2048 .f32) (harg10 : arg10.IsWhole) (arg11 : Memref sig .tc .vmem S2048x768 .bf16) (harg11 : arg11.IsWhole) (arg12 : Memref sig .tc .vmem S2048x768 .bf16) (harg12 : arg12.IsWhole) (arg13 : Memref sig .tc .vmem S1x2048 .f32) (harg13 : arg13.IsWhole) (arg14 : Memref sig .tc .vmem S1x2048 .f32) (harg14 : arg14.IsWhole) (hc0 : cond0_0 i) (hc1 : ¬cond0_1 i) (x0 : Vec F S1x512x768 .f32) (x1 : Vec F S1x2048x768 .f32) (x2 : Vec F S768x768 .bf16) (x3 : Vec F S768x768 .bf16) (x4 : Vec F S768 .f32) (x5 : Vec F S768x768 .bf16) (x6 : Vec F S768x768 .bf16) (x7 : Vec F S768 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay1 (k0_pay11 x0 x2 x3 x4 (k0_pay5 x1 x5 x6 x7) (k0_pay6 x1 x5 x6 x7)) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1x2048) hz2]
  simp only [View.readCov_unit_zero (S := S2048x768) _ hz2, View.readCov_unit_zero (S := S1x2048) _ hz2, View.readAt_eq_ld,
    harg2.read_unread, harg3.read_unread, harg4.read_unread, harg5.read_unread, harg6.read_unread, harg7.read_unread,
    harg8.read_unread, harg9.read_unread, harg11.read_unread, harg12.read_unread, harg13.read_unread, harg14.read_unread,
    View.ld_unit_zero (S := S1x512x768) hz3, View.ld_unit_zero (S := S1x2048x768) hz3, View.ld_unit_zero (S := S768x768) hz2,
    View.ld_unit_zero (S := S768) hz1, View.ld_unit_zero (S := S2048x768) hz2, View.ld_unit_zero (S := S1x2048) hz2]

theorem sumN_first (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768 .f32) (harg9 : arg9.IsWhole) (arg10 : Memref sig .tc .vmem S1x1x2048 .f32) (harg10 : arg10.IsWhole) (arg11 : Memref sig .tc .vmem S2048x768 .bf16) (harg11 : arg11.IsWhole) (arg12 : Memref sig .tc .vmem S2048x768 .bf16) (harg12 : arg12.IsWhole) (arg13 : Memref sig .tc .vmem S1x2048 .f32) (harg13 : arg13.IsWhole) (arg14 : Memref sig .tc .vmem S1x2048 .f32) (harg14 : arg14.IsWhole) (hc0 : cond0_0 i) (hc1 : ¬cond0_1 i) (x0 : Vec F S1x512x768 .f32) (x1 : Vec F S1x2048x768 .f32) (x2 : Vec F S768x768 .bf16) (x3 : Vec F S768x768 .bf16) (x4 : Vec F S768 .f32) (x5 : Vec F S768x768 .bf16) (x6 : Vec F S768x768 .bf16) (x7 : Vec F S768 .f32) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay2 (k0_pay10 x0 x2 x3 x4 (k0_pay5 x1 x5 x6 x7) (k0_pay6 x1 x5 x6 x7)) (k0_pay11 x0 x2 x3 x4 (k0_pay5 x1 x5 x6 x7) (k0_pay6 x1 x5 x6 x7)) (k0_pay9 k0_pay8) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7)]
  unfold kernelRun0_A
  dsimp only
  sl_unfold_words
  rw [View.canon_cons_unit_zero (S := S1x2048) hz2]
  simp only [View.readCov_unit_zero (S := S2048x768) _ hz2, View.readCov_unit_zero (S := S1x2048) _ hz2, View.readAt_eq_ld,
    harg2.read_unread, harg3.read_unread, harg4.read_unread, harg5.read_unread, harg6.read_unread, harg7.read_unread,
    harg8.read_unread, harg9.read_unread, harg11.read_unread, harg12.read_unread, harg13.read_unread, harg14.read_unread,
    View.ld_unit_zero (S := S1x512x768) hz3, View.ld_unit_zero (S := S1x2048x768) hz3, View.ld_unit_zero (S := S768x768) hz2,
    View.ld_unit_zero (S := S768) hz1, View.ld_unit_zero (S := S2048x768) hz2, View.ld_unit_zero (S := S1x2048) hz2]

/-! ## A middle query block -/

theorem sumW_mid (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768 .f32) (harg9 : arg9.IsWhole) (arg10 : Memref sig .tc .vmem S1x1x2048 .f32) (harg10 : arg10.IsWhole) (arg11 : Memref sig .tc .vmem S2048x768 .bf16) (harg11 : arg11.IsWhole) (arg12 : Memref sig .tc .vmem S2048x768 .bf16) (harg12 : arg12.IsWhole) (arg13 : Memref sig .tc .vmem S1x2048 .f32) (harg13 : arg13.IsWhole) (arg14 : Memref sig .tc .vmem S1x2048 .f32) (harg14 : arg14.IsWhole) (hc0 : ¬cond0_0 i) (hc1 : ¬cond0_1 i) (x0 : Vec F S1x512x768 .f32) (x1 : Vec F S1x2048x768 .f32) (x2 : Vec F S768x768 .bf16) (x3 : Vec F S768x768 .bf16) (x4 : Vec F S768 .f32) (x5 : Vec F S768x768 .bf16) (x6 : Vec F S768x768 .bf16) (x7 : Vec F S768 .f32) (xs0 : Vec F S2048x768 .bf16) (xs1 : Vec F S2048x768 .bf16) (xs2 : Vec F S1x2048 .f32) (xs3 : Vec F S1x2048 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay1 (k0_pay11 x0 x2 x3 x4 xs0 xs1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_cons_unit_zero (S := S1x2048) hz2]
  simp only [View.readCov_unit_zero (S := S2048x768) _ hz2, View.readCov_unit_zero (S := S1x2048) _ hz2, View.readAt_eq_ld,
    harg2.read_unread, harg3.read_unread, harg4.read_unread, harg5.read_unread, harg6.read_unread, harg7.read_unread,
    harg8.read_unread, harg9.read_unread, harg11.read_unread, harg12.read_unread, harg13.read_unread, harg14.read_unread,
    View.ld_unit_zero (S := S1x512x768) hz3, View.ld_unit_zero (S := S1x2048x768) hz3, View.ld_unit_zero (S := S768x768) hz2,
    View.ld_unit_zero (S := S768) hz1, View.ld_unit_zero (S := S2048x768) hz2, View.ld_unit_zero (S := S1x2048) hz2]

theorem sumN_mid (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768 .f32) (harg9 : arg9.IsWhole) (arg10 : Memref sig .tc .vmem S1x1x2048 .f32) (harg10 : arg10.IsWhole) (arg11 : Memref sig .tc .vmem S2048x768 .bf16) (harg11 : arg11.IsWhole) (arg12 : Memref sig .tc .vmem S2048x768 .bf16) (harg12 : arg12.IsWhole) (arg13 : Memref sig .tc .vmem S1x2048 .f32) (harg13 : arg13.IsWhole) (arg14 : Memref sig .tc .vmem S1x2048 .f32) (harg14 : arg14.IsWhole) (hc0 : ¬cond0_0 i) (hc1 : ¬cond0_1 i) (x0 : Vec F S1x512x768 .f32) (x1 : Vec F S1x2048x768 .f32) (x2 : Vec F S768x768 .bf16) (x3 : Vec F S768x768 .bf16) (x4 : Vec F S768 .f32) (x5 : Vec F S768x768 .bf16) (x6 : Vec F S768x768 .bf16) (x7 : Vec F S768 .f32) (xs0 : Vec F S2048x768 .bf16) (xs1 : Vec F S2048x768 .bf16) (xs2 : Vec F S1x2048 .f32) (xs3 : Vec F S1x2048 .f32) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay2 (k0_pay10 x0 x2 x3 x4 xs0 xs1) (k0_pay11 x0 x2 x3 x4 xs0 xs1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_B
  dsimp only
  sl_unfold_words
  rw [View.canon_cons_unit_zero (S := S1x2048) hz2]
  simp only [View.readCov_unit_zero (S := S2048x768) _ hz2, View.readCov_unit_zero (S := S1x2048) _ hz2, View.readAt_eq_ld,
    harg2.read_unread, harg3.read_unread, harg4.read_unread, harg5.read_unread, harg6.read_unread, harg7.read_unread,
    harg8.read_unread, harg9.read_unread, harg11.read_unread, harg12.read_unread, harg13.read_unread, harg14.read_unread,
    View.ld_unit_zero (S := S1x512x768) hz3, View.ld_unit_zero (S := S1x2048x768) hz3, View.ld_unit_zero (S := S768x768) hz2,
    View.ld_unit_zero (S := S768) hz1, View.ld_unit_zero (S := S2048x768) hz2, View.ld_unit_zero (S := S1x2048) hz2]

/-! ## The last query block -/

theorem sumW_last (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768 .f32) (harg9 : arg9.IsWhole) (arg10 : Memref sig .tc .vmem S1x1x2048 .f32) (harg10 : arg10.IsWhole) (arg11 : Memref sig .tc .vmem S2048x768 .bf16) (harg11 : arg11.IsWhole) (arg12 : Memref sig .tc .vmem S2048x768 .bf16) (harg12 : arg12.IsWhole) (arg13 : Memref sig .tc .vmem S1x2048 .f32) (harg13 : arg13.IsWhole) (arg14 : Memref sig .tc .vmem S1x2048 .f32) (harg14 : arg14.IsWhole) (hc0 : ¬cond0_0 i) (hc1 : cond0_1 i) (x0 : Vec F S1x512x768 .f32) (x1 : Vec F S1x2048x768 .f32) (x2 : Vec F S768x768 .bf16) (x3 : Vec F S768x768 .bf16) (x4 : Vec F S768 .f32) (x5 : Vec F S768x768 .bf16) (x6 : Vec F S768x768 .bf16) (x7 : Vec F S768 .f32) (xs0 : Vec F S2048x768 .bf16) (xs1 : Vec F S2048x768 .bf16) (xs2 : Vec F S1x2048 .f32) (xs3 : Vec F S1x2048 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay1 (k0_pay11 x0 x2 x3 x4 xs0 xs1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_cons_unit_zero (S := S1x2048) hz2]
  simp only [View.readCov_unit_zero (S := S2048x768) _ hz2, View.readCov_unit_zero (S := S1x2048) _ hz2, View.readAt_eq_ld,
    harg2.read_unread, harg3.read_unread, harg4.read_unread, harg5.read_unread, harg6.read_unread, harg7.read_unread,
    harg8.read_unread, harg9.read_unread, harg11.read_unread, harg12.read_unread, harg13.read_unread, harg14.read_unread,
    View.ld_unit_zero (S := S1x512x768) hz3, View.ld_unit_zero (S := S1x2048x768) hz3, View.ld_unit_zero (S := S768x768) hz2,
    View.ld_unit_zero (S := S768) hz1, View.ld_unit_zero (S := S2048x768) hz2, View.ld_unit_zero (S := S1x2048) hz2]

theorem sumN_last (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768 .f32) (harg9 : arg9.IsWhole) (arg10 : Memref sig .tc .vmem S1x1x2048 .f32) (harg10 : arg10.IsWhole) (arg11 : Memref sig .tc .vmem S2048x768 .bf16) (harg11 : arg11.IsWhole) (arg12 : Memref sig .tc .vmem S2048x768 .bf16) (harg12 : arg12.IsWhole) (arg13 : Memref sig .tc .vmem S1x2048 .f32) (harg13 : arg13.IsWhole) (arg14 : Memref sig .tc .vmem S1x2048 .f32) (harg14 : arg14.IsWhole) (hc0 : ¬cond0_0 i) (hc1 : cond0_1 i) (x0 : Vec F S1x512x768 .f32) (x1 : Vec F S1x2048x768 .f32) (x2 : Vec F S768x768 .bf16) (x3 : Vec F S768x768 .bf16) (x4 : Vec F S768 .f32) (x5 : Vec F S768x768 .bf16) (x6 : Vec F S768x768 .bf16) (x7 : Vec F S768 .f32) (xs0 : Vec F S2048x768 .bf16) (xs1 : Vec F S2048x768 .bf16) (xs2 : Vec F S1x2048 .f32) (xs3 : Vec F S1x2048 .f32) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay2 (k0_pay10 x0 x2 x3 x4 xs0 xs1) (k0_pay11 x0 x2 x3 x4 xs0 xs1) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_cons_unit_zero (S := S1x2048) hz2]
  simp only [View.readCov_unit_zero (S := S2048x768) _ hz2, View.readCov_unit_zero (S := S1x2048) _ hz2, View.readAt_eq_ld,
    harg2.read_unread, harg3.read_unread, harg4.read_unread, harg5.read_unread, harg6.read_unread, harg7.read_unread,
    harg8.read_unread, harg9.read_unread, harg11.read_unread, harg12.read_unread, harg13.read_unread, harg14.read_unread,
    View.ld_unit_zero (S := S1x512x768) hz3, View.ld_unit_zero (S := S1x2048x768) hz3, View.ld_unit_zero (S := S768x768) hz2,
    View.ld_unit_zero (S := S768) hz1, View.ld_unit_zero (S := S2048x768) hz2, View.ld_unit_zero (S := S1x2048) hz2]

theorem out_last (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S768 .f32) (harg9 : arg9.IsWhole) (arg10 : Memref sig .tc .vmem S1x1x2048 .f32) (harg10 : arg10.IsWhole) (arg11 : Memref sig .tc .vmem S2048x768 .bf16) (harg11 : arg11.IsWhole) (arg12 : Memref sig .tc .vmem S2048x768 .bf16) (harg12 : arg12.IsWhole) (arg13 : Memref sig .tc .vmem S1x2048 .f32) (harg13 : arg13.IsWhole) (arg14 : Memref sig .tc .vmem S1x2048 .f32) (harg14 : arg14.IsWhole) (hc0 : ¬cond0_0 i) (hc1 : cond0_1 i) (x0 : Vec F S1x512x768 .f32) (x1 : Vec F S1x2048x768 .f32) (x2 : Vec F S768x768 .bf16) (x3 : Vec F S768x768 .bf16) (x4 : Vec F S768 .f32) (x5 : Vec F S768x768 .bf16) (x6 : Vec F S768x768 .bf16) (x7 : Vec F S768 .f32) (xs0 : Vec F S2048x768 .bf16) (xs1 : Vec F S2048x768 .bf16) (xs2 : Vec F S1x2048 .f32) (xs3 : Vec F S1x2048 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3 = k0_pay3 (k0_pay2 (k0_pay10 x0 x2 x3 x4 xs0 xs1) (k0_pay11 x0 x2 x3 x4 xs0 xs1) xs3) (k0_pay1 (k0_pay11 x0 x2 x3 x4 xs0 xs1) xs2) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 xs2 xs3)]
  unfold kernelRun0_C
  dsimp only
  sl_unfold_words
  rw [View.canon_cons_unit_zero (S := S1x1x2048) hz3]
  simp only [View.readCov_unit_zero (S := S2048x768) _ hz2, View.readCov_unit_zero (S := S1x2048) _ hz2, View.readAt_eq_ld,
    harg2.read_unread, harg3.read_unread, harg4.read_unread, harg5.read_unread, harg6.read_unread, harg7.read_unread,
    harg8.read_unread, harg9.read_unread, harg11.read_unread, harg12.read_unread, harg13.read_unread, harg14.read_unread,
    View.ld_unit_zero (S := S1x512x768) hz3, View.ld_unit_zero (S := S1x2048x768) hz3, View.ld_unit_zero (S := S768x768) hz2,
    View.ld_unit_zero (S := S768) hz1, View.ld_unit_zero (S := S2048x768) hz2, View.ld_unit_zero (S := S1x2048) hz2]

end Cert.KernelIdeal.Pieces

end
-- ==== Proof.LibRealLift.lean ====
/-
  Finite arrays.  An array of extended reals that is the coercion of an array of reals stays one under every operation
  the two programs apply to finite data: sums, differences, products, a quotient by a nonzero real, `tanh`, `exp`, a
  change of float format (the identity), a matrix product into a zero accumulator, the host's `dot_general`, a sum
  along one axis (the kernel's and the host's), and every change of layout (which only re-indexes).  Each lemma names
  the real array the result is the coercion of, so that all further algebra is done over ℝ.
-/
import Idealize.ShloMosaic.PureOps.Ideal
import Idealize.ShloMosaic.PureOps.Ideal.Laws
import Idealize.ShloMosaic.Lib.ValueIdx
import Idealize.ShloMosaic.Lib.Pipeline.Value

noncomputable section

namespace Cert.RealLift

open Idealize.ShloMosaic

/-- `A` is the coercion of the real array `a`, entry by entry. -/
def IsR {ι : Type} (A : ι → EReal) (a : ι → ℝ) : Prop := ∀ i, A i = ((a i : ℝ) : EReal)

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of finite entries is the coercion of the real sum of products. -/
theorem sum_mul_coe {ι : Type} (s : Finset ι) (f g : ι → EReal) (f' g' : ι → ℝ) (hf : ∀ i, f i = ((f' i : ℝ) : EReal))
    (hg : ∀ i, g i = ((g' i : ℝ) : EReal)) : ∑ i ∈ s, f i * g i = ((∑ i ∈ s, f' i * g' i : ℝ) : EReal) := by
  rw [coe_sum]
  exact Finset.sum_congr rfl fun i _ => by rw [hf i, hg i, EReal.coe_mul]

theorem sum_coe {ι : Type} (s : Finset ι) (f : ι → EReal) (f' : ι → ℝ) (hf : ∀ i, f i = ((f' i : ℝ) : EReal)) :
    ∑ i ∈ s, f i = ((∑ i ∈ s, f' i : ℝ) : EReal) := by
  rw [coe_sum]
  exact Finset.sum_congr rfl fun i _ => hf i

variable {s t : Shape} {φ : FTy}

namespace IsR

theorem of_eq {ι : Type} {A : ι → EReal} {a a' : ι → ℝ} (h : IsR A a) (e : ∀ i, a i = a' i) : IsR A a' :=
  fun i => (h i).trans (congrArg _ (e i))

theorem addf {A B : FVec Ideal s φ} {a b : s.Idx → ℝ} (hA : IsR A a) (hB : IsR B b) :
    IsR (Idealize.ShloMosaic.addf A B) (fun i => a i + b i) := fun i => by
  show A i + B i = _
  rw [hA i, hB i, EReal.coe_add]

theorem subf {A B : FVec Ideal s φ} {a b : s.Idx → ℝ} (hA : IsR A a) (hB : IsR B b) :
    IsR (Idealize.ShloMosaic.subf A B) (fun i => a i - b i) := fun i => by
  show A i - B i = _
  rw [hA i, hB i, EReal.coe_sub]

theorem mulf {A B : FVec Ideal s φ} {a b : s.Idx → ℝ} (hA : IsR A a) (hB : IsR B b) :
    IsR (Idealize.ShloMosaic.mulf A B) (fun i => a i * b i) := fun i => by
  show A i * B i = _
  rw [hA i, hB i, EReal.coe_mul]

/-- A quotient by a nonzero real. -/
theorem div_coe (x y : ℝ) (hy : y ≠ 0) : Ideal.div ((x : ℝ) : EReal) ((y : ℝ) : EReal) = ((x / y : ℝ) : EReal) := by
  rw [Ideal.div_coe hy, ← EReal.coe_mul, mul_one_div]

theorem divf {A B : FVec Ideal s φ} {a b : s.Idx → ℝ} (hA : IsR A a) (hB : IsR B b) (hb : ∀ i, b i ≠ 0) :
    IsR (Idealize.ShloMosaic.divf A B) (fun i => a i / b i) := fun i => by
  show Ideal.div (A i) (B i) = _
  rw [hA i, hB i, div_coe _ _ (hb i)]

theorem hostDivf {A B : FVec Ideal s φ} {a b : s.Idx → ℝ} (hA : IsR A a) (hB : IsR B b) (hb : ∀ i, b i ≠ 0) :
    IsR (Host.divf A B) (fun i => a i / b i) := fun i => by
  show Ideal.div (A i) (B i) = _
  rw [hA i, hB i, div_coe _ _ (hb i)]

theorem tanh {A : FVec Ideal s φ} {a : s.Idx → ℝ} (hA : IsR A a) :
    IsR (Idealize.ShloMosaic.tanh A) (fun i => Real.tanh (a i)) := fun i => by
  show Ideal.tanh (A i) = _
  rw [hA i]; rfl

theorem exp {A : FVec Ideal s φ} {a : s.Idx → ℝ} (hA : IsR A a) :
    IsR (Idealize.ShloMosaic.exp A) (fun i => Real.exp (a i)) := fun i => by
  show Ideal.exp (A i) = _
  rw [hA i]; rfl

theorem hostTanh {A : FVec Ideal s φ} {a : s.Idx → ℝ} (hA : IsR A a) :
    IsR (Host.tanh A) (fun i => Real.tanh (a i)) := fun i => by
  show Ideal.tanh (A i) = _
  rw [hA i]; rfl

theorem hostExp {A : FVec Ideal s φ} {a : s.Idx → ℝ} (hA : IsR A a) :
    IsR (Host.exp A) (fun i => Real.exp (a i)) := fun i => by
  show Ideal.exp (A i) = _
  rw [hA i]; rfl

/-- A change of float format is the identity on the extended reals. -/
theorem truncf {A : FVec Ideal s φ} {a : s.Idx → ℝ} (hA : IsR A a) (ψ : FTy) (h : ψ.bits < φ.bits) :
    IsR (Idealize.ShloMosaic.truncf ψ A h : FVec Ideal s ψ) a := fun i => hA i

theorem extf {A : FVec Ideal s φ} {a : s.Idx → ℝ} (hA : IsR A a) (ψ : FTy) (h : φ.bits < ψ.bits) :
    IsR (Idealize.ShloMosaic.extf ψ A h : FVec Ideal s ψ) a := fun i => hA i

/-- Layout operations only re-index. -/
theorem shapeCast {A : s.Idx → EReal} {a : s.Idx → ℝ} (hA : IsR A a) (h : s.ShapeCasts t) :
    IsR (Idealize.ShloMosaic.shapeCast t A h) (Idealize.ShloMosaic.shapeCast t a h) := fun _ => hA _

theorem broadcastTo {A : s.Idx → EReal} {a : s.Idx → ℝ} (hA : IsR A a) (h : s.Broadcasts t) :
    IsR (Idealize.ShloMosaic.broadcastTo t A h) (Idealize.ShloMosaic.broadcastTo t a h) := fun _ => hA _

theorem broadcastInDim {A : s.Idx → EReal} {a : s.Idx → ℝ} (hA : IsR A a) (dims : Fin s.rank → Fin t.rank)
    (h : s.BroadcastsInDim t dims) :
    IsR (Idealize.ShloMosaic.broadcastInDim t dims h A) (Idealize.ShloMosaic.broadcastInDim t dims h a) := fun _ => hA _

/-- A splat of a real. -/
theorem broadcast {x : EReal} {r : ℝ} (h : x = ((r : ℝ) : EReal)) : IsR (Idealize.ShloMosaic.broadcast s x) (fun _ => r) :=
  fun _ => h

theorem constant {b : BitVec φ.bits} {r : ℝ} (h : Ideal.ofBits φ b = ((r : ℝ) : EReal)) :
    IsR (Idealize.ShloMosaic.constant (F := Ideal) s φ b) (fun _ => r) := fun _ => h

/-- A matrix product of finite operands into the zero accumulator: the real sum of products over the contraction. -/
theorem matmul0 {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Idealize.ShloMosaic.matmul D prec A B (Idealize.ShloMosaic.constant so .f32 0x00000000#32))
      (fun j => ∑ k : D.contr.Idx, a (D.lhsIdx j k) * b (D.rhsIdx j k)) := fun j => by
  refine (Ideal.matmul_constant_zero_apply D prec A B j).trans ?_
  exact sum_mul_coe _ _ _ _ _ (fun k => hA _) (fun k => hB _)

/-- The host's `dot_general` of finite operands. -/
theorem dotGeneral {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Host.dotGeneral D prec A B) (fun j => ∑ k : D.contr.Idx, a (D.lhsIdx j k) * b (D.rhsIdx j k)) := fun j => by
  refine (Ideal.dotGeneral_apply D prec .single A B j).trans ?_
  exact sum_mul_coe _ _ _ _ _ (fun k => hA _) (fun k => hB _)

/-- The kernel's sum along one axis of a finite array. -/
theorem multiReduction_add {ax : Fin s.rank} {A : FVec Ideal s φ} {a : s.Idx → ℝ} (hA : IsR A a) (acc : BitVec φ.bits)
    (h : s.Reduces [ax] t) (hφ : FKind.Formats φ) (hacc : acc = FKind.add.neutral φ hφ) :
    IsR (Idealize.ShloMosaic.multiReduction .add [ax] t A acc h hφ hacc) (fun j => ∑ k : Fin (s.size ax), a (h.lift j k)) :=
  fun j => by
    refine (Ideal.multiReduction_add_single A acc h hφ hacc j).trans ?_
    exact sum_coe _ _ _ (fun k => hA _)

end IsR

end Cert.RealLift

end
-- ==== Proof.Spec.lean ====
/-
  The specification.  Both programs compute, for a batch `n` and a key position `t`,

      out n t = ( Σ_s w(n,s,t) · qk(n,s,t) ) / ( Σ_s w(n,s,t) + ε ),     w = exp (tanh qk),   qk(n,s,t) = Σ_e q(n,s,e) · k(n,t,e),

  with `q = x1·Wq + bq` and `k = x2·Wk + bk`.  The reference divides every weight by the denominator before the sum over the
  query positions `s`; the kernel sums first, four blocks of 512 query positions at a time, and divides once at the end.
  Over the reals the two agree: a quotient distributes over a finite sum.  Everything here is over ℝ; the modules that
  read the two programs show that, on finite inputs, every intermediate value of either program is the coercion of
  the real number named here.
-/
import Idealize.ShloMosaic.PureOps.Ideal
import Idealize.ShloMosaic.Lib.ValueIdx

noncomputable section

namespace Cert.Spec

open Idealize.ShloMosaic Idealize.ShloMosaic.ValueIdx

/-- The real number the f32 word `0x33D6BF95` (the nearest f32 to 1e-7) denotes: `14073749 · 2⁻⁴⁷`. -/
def eps : ℝ := 14073749 * (2 : ℝ) ^ (-47 : ℤ)

theorem eps_pos : 0 < eps := by unfold eps; positivity

theorem ofBits_eps : Ideal.ofBits .f32 0x33D6BF95#32 = ((eps : ℝ) : EReal) := by
  unfold eps
  simp [Ideal.ofBits, Ideal.ieee, -EReal.coe_mul]

theorem ofBits_zero : Ideal.ofBits .f32 0x00000000#32 = ((0 : ℝ) : EReal) := by
  simp [Ideal.ofBits, Ideal.ieee]

/-- The arrays, over the reals: the two activations [8, 2048, 768], a weight matrix [768, 768], a bias [768]. -/
abbrev Act := (⟨3, ![8, 2048, 768]⟩ : Shape).Idx → ℝ
abbrev Mat := (⟨2, ![768, 768]⟩ : Shape).Idx → ℝ
abbrev Bias := (⟨1, ![768]⟩ : Shape).Idx → ℝ

/-- A projection `x·W + b` at (batch, position, feature). -/
def proj (x : Act) (w : Mat) (b : Bias) (n : Fin 8) (s : Fin 2048) (e : Fin 768) : ℝ :=
  (∑ d : Fin 768, x (ix3 n s d) * w (ix2 d e)) + b (ix1 e)

variable (x1 x2 : Act) (wq : Mat) (bq : Bias) (wk : Mat) (bk : Bias)

/-- The score of query position `s` against key position `t`. -/
def score (n : Fin 8) (s t : Fin 2048) : ℝ :=
  ∑ e : Fin 768, proj x1 wq bq n s e * proj x2 wk bk n t e

/-- The weight `exp (tanh score)`. -/
def wgt (n : Fin 8) (s t : Fin 2048) : ℝ := Real.exp (Real.tanh (score x1 x2 wq bq wk bk n s t))

theorem wgt_pos (n : Fin 8) (s t : Fin 2048) : 0 < wgt x1 x2 wq bq wk bk n s t := Real.exp_pos _

/-- The denominator: the weights summed over the query positions, plus ε. -/
def den (n : Fin 8) (t : Fin 2048) : ℝ := (∑ s : Fin 2048, wgt x1 x2 wq bq wk bk n s t) + eps

theorem den_pos (n : Fin 8) (t : Fin 2048) : 0 < den x1 x2 wq bq wk bk n t :=
  add_pos_of_nonneg_of_pos (Finset.sum_nonneg fun s _ => (wgt_pos x1 x2 wq bq wk bk n s t).le) eps_pos

/-- The result, in the reference's arrangement: every weight divided by the denominator, then the weighted scores
    summed over the query positions. -/
def out (n : Fin 8) (t : Fin 2048) : ℝ :=
  ∑ s : Fin 2048, wgt x1 x2 wq bq wk bk n s t / den x1 x2 wq bq wk bk n t * score x1 x2 wq bq wk bk n s t

/-! ## The kernel's arrangement: four blocks of 512 query positions -/

/-- Query position `r` of block `k` (total in `k`; for `k < 4` it is `512·k + r`). -/
def row (k : ℕ) (r : Fin 512) : Fin 2048 := ⟨(512 * k + r.val) % 2048, Nat.mod_lt _ (by norm_num)⟩

theorem row_val (k : ℕ) (hk : k < 4) (r : Fin 512) : (row k r).val = 512 * k + r.val := by
  have := r.isLt
  show (512 * k + r.val) % 2048 = _
  exact Nat.mod_eq_of_lt (by omega)

/-- One block's contribution to the sum of the weights, and to the sum of the weighted scores. -/
def blkW (n : Fin 8) (k : ℕ) (t : Fin 2048) : ℝ := ∑ r : Fin 512, wgt x1 x2 wq bq wk bk n (row k r) t
def blkN (n : Fin 8) (k : ℕ) (t : Fin 2048) : ℝ :=
  ∑ r : Fin 512, wgt x1 x2 wq bq wk bk n (row k r) t * score x1 x2 wq bq wk bk n (row k r) t

/-- The running sums after block `k`. -/
def accW (n : Fin 8) (k : ℕ) (t : Fin 2048) : ℝ := ∑ j ∈ Finset.range (k + 1), blkW x1 x2 wq bq wk bk n j t
def accN (n : Fin 8) (k : ℕ) (t : Fin 2048) : ℝ := ∑ j ∈ Finset.range (k + 1), blkN x1 x2 wq bq wk bk n j t

theorem accW_zero (n : Fin 8) (t : Fin 2048) : accW x1 x2 wq bq wk bk n 0 t = blkW x1 x2 wq bq wk bk n 0 t := by
  unfold accW; rw [Finset.sum_range_one]
theorem accN_zero (n : Fin 8) (t : Fin 2048) : accN x1 x2 wq bq wk bk n 0 t = blkN x1 x2 wq bq wk bk n 0 t := by
  unfold accN; rw [Finset.sum_range_one]
theorem accW_succ (n : Fin 8) (k : ℕ) (t : Fin 2048) :
    accW x1 x2 wq bq wk bk n (k + 1) t = accW x1 x2 wq bq wk bk n k t + blkW x1 x2 wq bq wk bk n (k + 1) t := by
  unfold accW; rw [Finset.sum_range_succ _ (k + 1)]
theorem accN_succ (n : Fin 8) (k : ℕ) (t : Fin 2048) :
    accN x1 x2 wq bq wk bk n (k + 1) t = accN x1 x2 wq bq wk bk n k t + blkN x1 x2 wq bq wk bk n (k + 1) t := by
  unfold accN; rw [Finset.sum_range_succ _ (k + 1)]

/-- A sum over the 2048 query positions is the sum over the four blocks of the sums over each block's 512 positions. -/
theorem sum_rows (f : Fin 2048 → ℝ) : ∑ j ∈ Finset.range 4, ∑ r : Fin 512, f (row j r) = ∑ s : Fin 2048, f s := by
  rw [Finset.sum_range (fun j => ∑ r : Fin 512, f (row j r)), ← Fintype.sum_prod_type' (fun (j : Fin 4) (r : Fin 512) => f (row j.val r))]
  rw [← Equiv.sum_comp (finProdFinEquiv (m := 4) (n := 512)) (fun s : Fin (4 * 512) => f s)]
  refine Finset.sum_congr rfl fun x _ => congrArg f (Fin.ext ?_)
  rw [row_val _ x.1.isLt]
  show _ = x.2.val + 512 * x.1.val
  omega

theorem accW_three (n : Fin 8) (t : Fin 2048) :
    accW x1 x2 wq bq wk bk n 3 t = ∑ s : Fin 2048, wgt x1 x2 wq bq wk bk n s t :=
  sum_rows fun s => wgt x1 x2 wq bq wk bk n s t

theorem accN_three (n : Fin 8) (t : Fin 2048) :
    accN x1 x2 wq bq wk bk n 3 t = ∑ s : Fin 2048, wgt x1 x2 wq bq wk bk n s t * score x1 x2 wq bq wk bk n s t :=
  sum_rows fun s => wgt x1 x2 wq bq wk bk n s t * score x1 x2 wq bq wk bk n s t

/-- THE LAW joining the two arrangements: dividing each weight first, or dividing the finished sum once. -/
theorem out_eq (n : Fin 8) (t : Fin 2048) :
    out x1 x2 wq bq wk bk n t = accN x1 x2 wq bq wk bk n 3 t / (accW x1 x2 wq bq wk bk n 3 t + eps) := by
  rw [accN_three, accW_three, Finset.sum_div]
  exact Finset.sum_congr rfl fun s _ => div_mul_eq_mul_div _ _ _

end Cert.Spec

end
-- ==== Proof.Blocks.lean ====
import proofs.«119709_j28793460752827_2_alg».proof.Proof.Gen.KernelIdeal.Frame
import proofs.«119709_j28793460752827_2_alg».proof.Proof.LibRealLift
import proofs.«119709_j28793460752827_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx Cert.RealLift
open Idealize.ShloMosaic.Pipeline (Dat)

/-! The input blocks on finite data.  The six argument arrays are assumed to be coercions of real arrays (the precondition
    gives that).  The host lines before the region split each weight matrix into its bf16 part and the remainder; at the
    ideal values the first is the matrix itself and the second is `W − W = 0`.  Each window's block at a grid point
    `t = 4·n + j` is read off its array: query block `j` of batch `n` of x1, the whole batch `n` of x2, the weights and
    biases whole. -/
namespace Cert.KernelIdeal.Blocks

open Cert.KernelIdeal Cert.KernelIdeal.Gen

variable (m : (ℓ : Loc nD τ sig) → Buf (Elt Ideal) ℓ) (c : Dev nD)

/-- The six argument arrays on core `c` are coercions of real arrays. -/
structure Args where
  x1 : Cert.Spec.Act
  x2 : Cert.Spec.Act
  wq : Cert.Spec.Mat
  bq : Cert.Spec.Bias
  wk : Cert.Spec.Mat
  bk : Cert.Spec.Bias
  h0 : IsR (ι := S8x2048x768.Idx) (m ((c : Thread nD τ).loc main_arg0)) x1
  h1 : IsR (ι := S8x2048x768.Idx) (m ((c : Thread nD τ).loc main_arg1)) x2
  h2 : IsR (ι := S768x768.Idx) (m ((c : Thread nD τ).loc main_arg2)) wq
  h3 : IsR (ι := S768.Idx) (m ((c : Thread nD τ).loc main_arg3)) bq
  h4 : IsR (ι := S768x768.Idx) (m ((c : Thread nD τ).loc main_arg4)) wk
  h5 : IsR (ι := S768.Idx) (m ((c : Thread nD τ).loc main_arg5)) bk

variable {m c}

/-! ## The weights as the region finds them -/

theorem V_wqHi : V m c main_v0 = (truncf (F := Ideal) (s := S768x768) .bf16 (m ((c : Thread nD τ).loc main_arg2)) bitsLt_bf16_f32 : FVec Ideal S768x768 .bf16) := by
  show StableHlo.after hostOps0 (fun b => m (c, b)) (Proc.devRef .tc main_v0) = _
  after_results

theorem V_wqLo : V m c main_v3 = (truncf (F := Ideal) (s := S768x768) .bf16 (subf (F := Ideal) (s := S768x768) (φ := .f32) (m ((c : Thread nD τ).loc main_arg2)) (extf (F := Ideal) (s := S768x768) .f32 (truncf (F := Ideal) (s := S768x768) (φ := .f32) .bf16 (m ((c : Thread nD τ).loc main_arg2)) bitsLt_bf16_f32) bitsLt_bf16_f32)) bitsLt_bf16_f32 : FVec Ideal S768x768 .bf16) := by
  show StableHlo.after hostOps0 (fun b => m (c, b)) (Proc.devRef .tc main_v3) = _
  after_results

theorem V_wkHi : V m c main_v4 = (truncf (F := Ideal) (s := S768x768) .bf16 (m ((c : Thread nD τ).loc main_arg4)) bitsLt_bf16_f32 : FVec Ideal S768x768 .bf16) := by
  show StableHlo.after hostOps0 (fun b => m (c, b)) (Proc.devRef .tc main_v4) = _
  after_results

theorem V_wkLo : V m c main_v7 = (truncf (F := Ideal) (s := S768x768) .bf16 (subf (F := Ideal) (s := S768x768) (φ := .f32) (m ((c : Thread nD τ).loc main_arg4)) (extf (F := Ideal) (s := S768x768) .f32 (truncf (F := Ideal) (s := S768x768) (φ := .f32) .bf16 (m ((c : Thread nD τ).loc main_arg4)) bitsLt_bf16_f32) bitsLt_bf16_f32)) bitsLt_bf16_f32 : FVec Ideal S768x768 .bf16) := by
  show StableHlo.after hostOps0 (fun b => m (c, b)) (Proc.devRef .tc main_v7) = _
  after_results

/-- The bf16 part of a finite weight matrix is the matrix; the remainder after it is zero. -/
theorem wqHi_isR (A : Args m c) : IsR (ι := S768x768.Idx) (V m c main_v0) A.wq := by
  rw [V_wqHi]; exact A.h2.truncf .bf16 _
theorem wqLo_isR (A : Args m c) : IsR (ι := S768x768.Idx) (V m c main_v3) (fun _ => 0) := by
  rw [V_wqLo]
  exact ((A.h2.subf ((A.h2.truncf .bf16 _).extf .f32 _)).truncf .bf16 _).of_eq fun i => sub_self _
theorem wkHi_isR (A : Args m c) : IsR (ι := S768x768.Idx) (V m c main_v4) A.wk := by
  rw [V_wkHi]; exact A.h4.truncf .bf16 _
theorem wkLo_isR (A : Args m c) : IsR (ι := S768x768.Idx) (V m c main_v7) (fun _ => 0) := by
  rw [V_wkLo]
  exact ((A.h4.subf ((A.h4.truncf .bf16 _).extf .f32 _)).truncf .bf16 _).of_eq fun i => sub_self _

/-! ## The index maps over the grid -/

theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_8.index t (0 : Fin 3) = t.val / 4 ∧ win0_8.index t (1 : Fin 3) = 0 ∧ win0_8.index t (2 : Fin 3) = 0 :=
  (by decide +kernel : ∀ t : Fin grid0.N, _)

theorem idx_zero : ∀ t : Fin cfg0.N,
    win0_2.index t (0 : Fin 2) = 0 ∧ win0_2.index t (1 : Fin 2) = 0 ∧ win0_3.index t (0 : Fin 2) = 0 ∧ win0_3.index t (1 : Fin 2) = 0
    ∧ win0_4.index t (0 : Fin 1) = 0 ∧ win0_5.index t (0 : Fin 2) = 0 ∧ win0_5.index t (1 : Fin 2) = 0
    ∧ win0_6.index t (0 : Fin 2) = 0 ∧ win0_6.index t (1 : Fin 2) = 0 ∧ win0_7.index t (0 : Fin 1) = 0 :=
  (by decide +kernel : ∀ t : Fin grid0.N, _)

/-- The batch a grid point works on: point `t = 4·n + j` is query block `j` of batch `n`. -/
def bat (t : Fin cfg0.N) : Fin 8 := ⟨t.val / 4, by have := t.isLt; have hN : cfg0.N = 32 := N_0; omega⟩

/-! ## The blocks -/

/-- Query block `t % 4` of batch `t / 4` of x1. -/
theorem blk_queries (A : Args m c) (t : Fin cfg0.N) :
    IsR (iblk m c 0 t : S1x512x768.Idx → EReal) (fun y => A.x1 (ix3 (bat t) (Cert.Spec.row (t.val % 4) (y 1)) (y 2))) := fun y => by
  obtain ⟨u, r, d, rfl⟩ : ∃ (u : Fin 1) (r : Fin 512) (d : Fin 768), y = ix3 u r d := ⟨y 0, y 1, y 2, eq_ix3 y⟩
  unfold iblk
  rw [View.read_apply]
  show V m c main_arg0 (((cfg0.win 0).blk t).view.emb (ix3 u r d)) = _
  refine (congrFun (V_main_arg0 m c) _).trans ((A.h0 _).trans (congrArg _ (congrArg A.x1 ?_)))
  obtain ⟨e0, e1, e2, -⟩ := idx_facts t
  funext a; apply Fin.ext
  match a with
  | ⟨0, _⟩ => show win0_0.index t (0 : Fin 3) * 1 + 1 * u.val = t.val / 4; rw [e0]; omega
  | ⟨1, _⟩ =>
    show win0_0.index t (1 : Fin 3) * 512 + 1 * r.val = (Cert.Spec.row (t.val % 4) r).val
    rw [e1, Cert.Spec.row_val _ (Nat.mod_lt _ (by norm_num))]; omega
  | ⟨2, _⟩ => show win0_0.index t (2 : Fin 3) * 768 + 1 * d.val = d.val; rw [e2]; omega

/-- The whole batch `t / 4` of x2. -/
theorem blk_keys (A : Args m c) (t : Fin cfg0.N) :
    IsR (iblk m c 1 t : S1x2048x768.Idx → EReal) (fun y => A.x2 (ix3 (bat t) (y 1) (y 2))) := fun y => by
  obtain ⟨u, r, d, rfl⟩ : ∃ (u : Fin 1) (r : Fin 2048) (d : Fin 768), y = ix3 u r d := ⟨y 0, y 1, y 2, eq_ix3 y⟩
  unfold iblk
  rw [View.read_apply]
  show V m c main_arg1 (((cfg0.win 1).blk t).view.emb (ix3 u r d)) = _
  refine (congrFun (V_main_arg1 m c) _).trans ((A.h1 _).trans (congrArg _ (congrArg A.x2 ?_)))
  obtain ⟨-, -, -, e0, e1, e2, -⟩ := idx_facts t
  funext a; apply Fin.ext
  match a with
  | ⟨0, _⟩ => show win0_1.index t (0 : Fin 3) * 1 + 1 * u.val = t.val / 4; rw [e0]; omega
  | ⟨1, _⟩ => show win0_1.index t (1 : Fin 3) * 2048 + 1 * r.val = r.val; rw [e1]; omega
  | ⟨2, _⟩ => show win0_1.index t (2 : Fin 3) * 768 + 1 * d.val = d.val; rw [e2]; omega

/-- The weights and biases, whole at every point. -/
theorem blk_wqHi (A : Args m c) (t : Fin cfg0.N) : IsR (iblk m c 2 t : S768x768.Idx → EReal) A.wq := fun y => by
  unfold iblk
  rw [View.read_apply]
  show V m c main_v0 (((cfg0.win 2).blk t).view.emb y) = _
  have e : ((cfg0.win 2).blk t).view.emb y = y := funext fun a => Fin.ext (by
    obtain ⟨z20, z21, z30, z31, z40, z50, z51, z60, z61, z70⟩ := idx_zero t
    match a with
    | ⟨0, _⟩ => show win0_2.index t (0 : Fin 2) * 768 + 1 * (y 0).val = (y 0).val; rw [z20]; omega
    | ⟨1, _⟩ => show win0_2.index t (1 : Fin 2) * 768 + 1 * (y 1).val = (y 1).val; rw [z21]; omega)
  rw [e]
  exact wqHi_isR A y

/-- The remainder part of Wq: zero. -/
theorem blk_wqLo (A : Args m c) (t : Fin cfg0.N) : IsR (iblk m c 3 t : S768x768.Idx → EReal) (fun _ => 0) := fun y => by
  unfold iblk
  rw [View.read_apply]
  show V m c main_v3 (((cfg0.win 3).blk t).view.emb y) = _
  have e : ((cfg0.win 3).blk t).view.emb y = y := funext fun a => Fin.ext (by
    obtain ⟨z20, z21, z30, z31, z40, z50, z51, z60, z61, z70⟩ := idx_zero t
    match a with
    | ⟨0, _⟩ => show win0_3.index t (0 : Fin 2) * 768 + 1 * (y 0).val = (y 0).val; rw [z30]; omega
    | ⟨1, _⟩ => show win0_3.index t (1 : Fin 2) * 768 + 1 * (y 1).val = (y 1).val; rw [z31]; omega)
  rw [e]
  exact wqLo_isR A y

/-- The query bias. -/
theorem blk_bq (A : Args m c) (t : Fin cfg0.N) : IsR (iblk m c 4 t : S768.Idx → EReal) A.bq := fun y => by
  unfold iblk
  rw [View.read_apply]
  show V m c main_arg3 (((cfg0.win 4).blk t).view.emb y) = _
  have e : ((cfg0.win 4).blk t).view.emb y = y := funext fun a => Fin.ext (by
    obtain ⟨z20, z21, z30, z31, z40, z50, z51, z60, z61, z70⟩ := idx_zero t
    match a with
    | ⟨0, _⟩ => show win0_4.index t (0 : Fin 1) * 768 + 1 * (y 0).val = (y 0).val; rw [z40]; omega)
  rw [e]
  exact (fun i => (congrFun (V_main_arg3 m c) i).trans (A.h3 i)) y

/-- Wk. -/
theorem blk_wkHi (A : Args m c) (t : Fin cfg0.N) : IsR (iblk m c 5 t : S768x768.Idx → EReal) A.wk := fun y => by
  unfold iblk
  rw [View.read_apply]
  show V m c main_v4 (((cfg0.win 5).blk t).view.emb y) = _
  have e : ((cfg0.win 5).blk t).view.emb y = y := funext fun a => Fin.ext (by
    obtain ⟨z20, z21, z30, z31, z40, z50, z51, z60, z61, z70⟩ := idx_zero t
    match a with
    | ⟨0, _⟩ => show win0_5.index t (0 : Fin 2) * 768 + 1 * (y 0).val = (y 0).val; rw [z50]; omega
    | ⟨1, _⟩ => show win0_5.index t (1 : Fin 2) * 768 + 1 * (y 1).val = (y 1).val; rw [z51]; omega)
  rw [e]
  exact wkHi_isR A y

/-- The remainder part of Wk: zero. -/
theorem blk_wkLo (A : Args m c) (t : Fin cfg0.N) : IsR (iblk m c 6 t : S768x768.Idx → EReal) (fun _ => 0) := fun y => by
  unfold iblk
  rw [View.read_apply]
  show V m c main_v7 (((cfg0.win 6).blk t).view.emb y) = _
  have e : ((cfg0.win 6).blk t).view.emb y = y := funext fun a => Fin.ext (by
    obtain ⟨z20, z21, z30, z31, z40, z50, z51, z60, z61, z70⟩ := idx_zero t
    match a with
    | ⟨0, _⟩ => show win0_6.index t (0 : Fin 2) * 768 + 1 * (y 0).val = (y 0).val; rw [z60]; omega
    | ⟨1, _⟩ => show win0_6.index t (1 : Fin 2) * 768 + 1 * (y 1).val = (y 1).val; rw [z61]; omega)
  rw [e]
  exact wkLo_isR A y

/-- The key bias. -/
theorem blk_bk (A : Args m c) (t : Fin cfg0.N) : IsR (iblk m c 7 t : S768.Idx → EReal) A.bk := fun y => by
  unfold iblk
  rw [View.read_apply]
  show V m c main_arg5 (((cfg0.win 7).blk t).view.emb y) = _
  have e : ((cfg0.win 7).blk t).view.emb y = y := funext fun a => Fin.ext (by
    obtain ⟨z20, z21, z30, z31, z40, z50, z51, z60, z61, z70⟩ := idx_zero t
    match a with
    | ⟨0, _⟩ => show win0_7.index t (0 : Fin 1) * 768 + 1 * (y 0).val = (y 0).val; rw [z70]; omega)
  rw [e]
  exact (fun i => (congrFun (V_main_arg5 m c) i).trans (A.h5 i)) y

end Cert.KernelIdeal.Blocks

end
-- ==== Proof.Payloads.lean ====
import proofs.«119709_j28793460752827_2_alg».proof.Proof.Gen.KernelIdeal.Skeleton
import proofs.«119709_j28793460752827_2_alg».proof.Proof.LibRealLift
import proofs.«119709_j28793460752827_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.ValueIdx Cert.RealLift

/-! The body's arithmetic on finite data.  Each payload of the kernel body, read at an index at the ideal values under the
    hypothesis that its operands are coercions of real arrays, is the coercion of a real number named here: the key and
    query projections `Σ_d x·W + b` (the hi/lo splitting adds only zeros), the scores `Σ_e q·k`, the weights
    `exp (tanh ·)`, the two running column sums, and the final quotient. -/
namespace Cert.KernelIdeal.Payloads

open Cert.KernelIdeal Cert.KernelIdeal.Gen

theorem dot_keys_lhs0 (j : S2048x768.Idx) (k : dot_S2048x768_S768x768_S2048x768_1_0_0_1_n_n.contr.Idx) : (dot_S2048x768_S768x768_S2048x768_1_0_0_1_n_n.lhsIdx j k 0).val = (j 0).val := by
  unfold DotDims.lhsIdx
  rw [dif_neg (show ¬(0 : Fin S2048x768.rank) ∈ dot_S2048x768_S768x768_S2048x768_1_0_0_1_n_n.lhsBatch by decide), dif_pos (show (0 : Fin S2048x768.rank) ∈ dot_S2048x768_S768x768_S2048x768_1_0_0_1_n_n.lhsNonContracting by decide)]
  rfl
theorem dot_keys_rhsN (j : S2048x768.Idx) (k : dot_S2048x768_S768x768_S2048x768_1_0_0_1_n_n.contr.Idx) : (dot_S2048x768_S768x768_S2048x768_1_0_0_1_n_n.rhsIdx j k 1).val = (j 1).val := by
  unfold DotDims.rhsIdx
  rw [dif_neg (show ¬(1 : Fin S768x768.rank) ∈ dot_S2048x768_S768x768_S2048x768_1_0_0_1_n_n.rhsBatch by decide), dif_pos (show (1 : Fin S768x768.rank) ∈ dot_S2048x768_S768x768_S2048x768_1_0_0_1_n_n.rhsNonContracting by decide)]
  rfl

/-- The contraction of `dot_S2048x768_S768x768_S2048x768_1_0_0_1_n_n` at output position (p, q), over the reals, as a sum over the 768 contracted coordinates. -/
theorem dot_keys (a : S2048x768.Idx → ℝ) (b : S768x768.Idx → ℝ) (p : Fin 2048) (q : Fin 768) :
    ∑ k : dot_S2048x768_S768x768_S2048x768_1_0_0_1_n_n.contr.Idx, a (dot_S2048x768_S768x768_S2048x768_1_0_0_1_n_n.lhsIdx (ix2 p q) k) * b (dot_S2048x768_S768x768_S2048x768_1_0_0_1_n_n.rhsIdx (ix2 p q) k)
      = ∑ d : Fin 768, a (ix2 p d) * b (ix2 d q) := by
  rw [← Equiv.sum_comp (contrEquiv1 dot_S2048x768_S768x768_S2048x768_1_0_0_1_n_n 768 rfl rfl).symm]
  refine Finset.sum_congr rfl fun d _ => ?_
  have hk := contrEquiv1_symm_val dot_S2048x768_S768x768_S2048x768_1_0_0_1_n_n 768 rfl rfl d
  have el : dot_S2048x768_S768x768_S2048x768_1_0_0_1_n_n.lhsIdx (ix2 p q) ((contrEquiv1 dot_S2048x768_S768x768_S2048x768_1_0_0_1_n_n 768 rfl rfl).symm d) = ix2 p d := funext fun ax => Fin.ext (by
    match ax with
    | ⟨0, _⟩ => exact dot_keys_lhs0 _ _
    | ⟨1, _⟩ => exact (dot_S2048x768_S768x768_S2048x768_1_0_0_1_n_n.lhsIdx_val_of_single rfl _ _).trans hk)
  have er : dot_S2048x768_S768x768_S2048x768_1_0_0_1_n_n.rhsIdx (ix2 p q) ((contrEquiv1 dot_S2048x768_S768x768_S2048x768_1_0_0_1_n_n 768 rfl rfl).symm d) = ix2 d q := funext fun ax => Fin.ext (by
    match ax with
    | ⟨0, _⟩ => exact (dot_S2048x768_S768x768_S2048x768_1_0_0_1_n_n.rhsIdx_val_of_single rfl _ _).trans hk
    | ⟨1, _⟩ => exact dot_keys_rhsN _ _)
  rw [el, er]

theorem dot_queries_lhs0 (j : S512x768.Idx) (k : dot_S512x768_S768x768_S512x768_1_0_0_1_n_n.contr.Idx) : (dot_S512x768_S768x768_S512x768_1_0_0_1_n_n.lhsIdx j k 0).val = (j 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem dot_queries_rhsN (j : S512x768.Idx) (k : dot_S512x768_S768x768_S512x768_1_0_0_1_n_n.contr.Idx) : (dot_S512x768_S768x768_S512x768_1_0_0_1_n_n.rhsIdx j k 1).val = (j 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- The contraction of `dot_S512x768_S768x768_S512x768_1_0_0_1_n_n` at output position (p, q), over the reals, as a sum over the 768 contracted coordinates. -/
theorem dot_queries (a : S512x768.Idx → ℝ) (b : S768x768.Idx → ℝ) (p : Fin 512) (q : Fin 768) :
    ∑ k : dot_S512x768_S768x768_S512x768_1_0_0_1_n_n.contr.Idx, a (dot_S512x768_S768x768_S512x768_1_0_0_1_n_n.lhsIdx (ix2 p q) k) * b (dot_S512x768_S768x768_S512x768_1_0_0_1_n_n.rhsIdx (ix2 p q) k)
      = ∑ d : Fin 768, a (ix2 p d) * b (ix2 d q) := by
  rw [← Equiv.sum_comp (contrEquiv1 dot_S512x768_S768x768_S512x768_1_0_0_1_n_n 768 rfl rfl).symm]
  refine Finset.sum_congr rfl fun d _ => ?_
  have hk := contrEquiv1_symm_val dot_S512x768_S768x768_S512x768_1_0_0_1_n_n 768 rfl rfl d
  have el : dot_S512x768_S768x768_S512x768_1_0_0_1_n_n.lhsIdx (ix2 p q) ((contrEquiv1 dot_S512x768_S768x768_S512x768_1_0_0_1_n_n 768 rfl rfl).symm d) = ix2 p d := funext fun ax => Fin.ext (by
    match ax with
    | ⟨0, _⟩ => exact dot_queries_lhs0 _ _
    | ⟨1, _⟩ => exact (dot_S512x768_S768x768_S512x768_1_0_0_1_n_n.lhsIdx_val_of_single rfl _ _).trans hk)
  have er : dot_S512x768_S768x768_S512x768_1_0_0_1_n_n.rhsIdx (ix2 p q) ((contrEquiv1 dot_S512x768_S768x768_S512x768_1_0_0_1_n_n 768 rfl rfl).symm d) = ix2 d q := funext fun ax => Fin.ext (by
    match ax with
    | ⟨0, _⟩ => exact (dot_S512x768_S768x768_S512x768_1_0_0_1_n_n.rhsIdx_val_of_single rfl _ _).trans hk
    | ⟨1, _⟩ => exact dot_queries_rhsN _ _)
  rw [el, er]

theorem dot_scores_lhs0 (j : S512x2048.Idx) (k : dot_S512x768_S2048x768_S512x2048_1_1_0_0_n_n.contr.Idx) : (dot_S512x768_S2048x768_S512x2048_1_1_0_0_n_n.lhsIdx j k 0).val = (j 0).val := by
  unfold DotDims.lhsIdx
  rw [dif_neg (show ¬(0 : Fin S512x768.rank) ∈ dot_S512x768_S2048x768_S512x2048_1_1_0_0_n_n.lhsBatch by decide), dif_pos (show (0 : Fin S512x768.rank) ∈ dot_S512x768_S2048x768_S512x2048_1_1_0_0_n_n.lhsNonContracting by decide)]
  rfl
theorem dot_scores_rhsN (j : S512x2048.Idx) (k : dot_S512x768_S2048x768_S512x2048_1_1_0_0_n_n.contr.Idx) : (dot_S512x768_S2048x768_S512x2048_1_1_0_0_n_n.rhsIdx j k 0).val = (j 1).val := by
  unfold DotDims.rhsIdx
  rw [dif_neg (show ¬(0 : Fin S2048x768.rank) ∈ dot_S512x768_S2048x768_S512x2048_1_1_0_0_n_n.rhsBatch by decide), dif_pos (show (0 : Fin S2048x768.rank) ∈ dot_S512x768_S2048x768_S512x2048_1_1_0_0_n_n.rhsNonContracting by decide)]
  rfl

/-- The contraction of `dot_S512x768_S2048x768_S512x2048_1_1_0_0_n_n` at output position (p, q), over the reals, as a sum over the 768 contracted coordinates. -/
theorem dot_scores (a : S512x768.Idx → ℝ) (b : S2048x768.Idx → ℝ) (p : Fin 512) (q : Fin 2048) :
    ∑ k : dot_S512x768_S2048x768_S512x2048_1_1_0_0_n_n.contr.Idx, a (dot_S512x768_S2048x768_S512x2048_1_1_0_0_n_n.lhsIdx (ix2 p q) k) * b (dot_S512x768_S2048x768_S512x2048_1_1_0_0_n_n.rhsIdx (ix2 p q) k)
      = ∑ d : Fin 768, a (ix2 p d) * b (ix2 q d) := by
  rw [← Equiv.sum_comp (contrEquiv1 dot_S512x768_S2048x768_S512x2048_1_1_0_0_n_n 768 rfl rfl).symm]
  refine Finset.sum_congr rfl fun d _ => ?_
  have hk := contrEquiv1_symm_val dot_S512x768_S2048x768_S512x2048_1_1_0_0_n_n 768 rfl rfl d
  have el : dot_S512x768_S2048x768_S512x2048_1_1_0_0_n_n.lhsIdx (ix2 p q) ((contrEquiv1 dot_S512x768_S2048x768_S512x2048_1_1_0_0_n_n 768 rfl rfl).symm d) = ix2 p d := funext fun ax => Fin.ext (by
    match ax with
    | ⟨0, _⟩ => exact dot_scores_lhs0 _ _
    | ⟨1, _⟩ => exact (dot_S512x768_S2048x768_S512x2048_1_1_0_0_n_n.lhsIdx_val_of_single rfl _ _).trans hk)
  have er : dot_S512x768_S2048x768_S512x2048_1_1_0_0_n_n.rhsIdx (ix2 p q) ((contrEquiv1 dot_S512x768_S2048x768_S512x2048_1_1_0_0_n_n 768 rfl rfl).symm d) = ix2 q d := funext fun ax => Fin.ext (by
    match ax with
    | ⟨1, _⟩ => exact (dot_S512x768_S2048x768_S512x2048_1_1_0_0_n_n.rhsIdx_val_of_single rfl _ _).trans hk
    | ⟨0, _⟩ => exact dot_scores_rhsN _ _)
  rw [el, er]

/-- THE KEY PROJECTION.  On finite data the three-pass product collapses: the low part of the weights is zero and so is
    `x − x`, leaving `Σ_d x(t,d)·W(d,e) + b(e)`. -/
theorem proj_keys {X : Vec Ideal S1x2048x768 .f32} {HI LO : Vec Ideal S768x768 .bf16} {B : Vec Ideal S768 .f32}
    {x : S1x2048x768.Idx → ℝ} {hi lo : S768x768.Idx → ℝ} {b : S768.Idx → ℝ}
    (hX : IsR X x) (hHI : IsR HI hi) (hLO : IsR LO lo) (hlo : ∀ i, lo i = 0) (hB : IsR B b) (t : Fin 2048) (e : Fin 768) :
    k0_pay4 X HI LO B (ix2 t e) = (((∑ d : Fin 768, x (ix3 (0 : Fin 1) t d) * hi (ix2 d e)) + b (ix1 e) : ℝ) : EReal) := by
  unfold k0_pay4
  refine ((((((hX.shapeCast _).truncf .bf16 _).matmul0 dot_S2048x768_S768x768_S2048x768_1_0_0_1_n_n none (hHI.shapeCast _)).addf
      (((hX.shapeCast _).truncf .bf16 _).matmul0 dot_S2048x768_S768x768_S2048x768_1_0_0_1_n_n none (hLO.shapeCast _))).addf
      ((((hX.shapeCast _).subf (hX.shapeCast _)).truncf .bf16 _).matmul0 dot_S2048x768_S768x768_S2048x768_1_0_0_1_n_n none (hHI.shapeCast _))).addf
      ((hB.shapeCast _).broadcastTo _) (ix2 t e)).trans (congrArg _ ?_)
  dsimp only
  rw [shapeCast_self, shapeCast_self]
  simp only [hlo, mul_zero, sub_self, zero_mul, Finset.sum_const_zero, add_zero]
  rw [dot_keys, broadcastTo_1b_ab_apply, shapeCast_a_1a_apply]
  refine congrArg (· + _) (Finset.sum_congr rfl fun d _ => ?_)
  rw [shapeCast_1ab_ab_apply]

/-- The stored high part of the keys is the projection itself (a change of format is the identity). -/
theorem keyHi_eq (X : Vec Ideal S1x2048x768 .f32) (HI LO : Vec Ideal S768x768 .bf16) (B : Vec Ideal S768 .f32) (i : S2048x768.Idx) :
    k0_pay5 X HI LO B i = k0_pay4 X HI LO B i := by
  unfold k0_pay5
  rw [shapeCast_self]
  rfl

/-- The stored low part of the keys is `k − k`: zero wherever the projection is finite. -/
theorem keyLo_eq (X : Vec Ideal S1x2048x768 .f32) (HI LO : Vec Ideal S768x768 .bf16) (B : Vec Ideal S768 .f32) (i : S2048x768.Idx)
    (r : ℝ) (hr : k0_pay4 X HI LO B i = ((r : ℝ) : EReal)) : k0_pay6 X HI LO B i = ((0 : ℝ) : EReal) := by
  unfold k0_pay6
  rw [shapeCast_self]
  show k0_pay4 X HI LO B i - k0_pay4 X HI LO B i = _
  rw [hr, ← EReal.coe_sub, sub_self]

/-! ## The scores of one block of 512 query positions -/

/-- The query projection of one block, as the body computes it (three passes, then the bias row). -/
def queryProj (X : FVec Ideal S1x512x768 .f32) (HI LO : FVec Ideal S768x768 .bf16) (B : FVec Ideal S768 .f32) : FVec Ideal S512x768 .f32 :=
  addf (addf (addf
      (matmul dot_S512x768_S768x768_S512x768_1_0_0_1_n_n none (truncf .bf16 (shapeCast S512x768 X shapeCasts_S1x512x768_S512x768) bitsLt_bf16_f32)
        (shapeCast S768x768 HI shapeCasts_S768x768_S768x768) (constant S512x768 .f32 0x00000000#32))
      (matmul dot_S512x768_S768x768_S512x768_1_0_0_1_n_n none (truncf .bf16 (shapeCast S512x768 X shapeCasts_S1x512x768_S512x768) bitsLt_bf16_f32)
        (shapeCast S768x768 LO shapeCasts_S768x768_S768x768) (constant S512x768 .f32 0x00000000#32)))
      (matmul dot_S512x768_S768x768_S512x768_1_0_0_1_n_n none (truncf .bf16 (subf (shapeCast S512x768 X shapeCasts_S1x512x768_S512x768) (shapeCast S512x768 X shapeCasts_S1x512x768_S512x768)) bitsLt_bf16_f32)
        (shapeCast S768x768 HI shapeCasts_S768x768_S768x768) (constant S512x768 .f32 0x00000000#32)))
    (broadcastTo S512x768 (shapeCast S1x768 B shapeCasts_S768_S1x768) broadcasts_S1x768_S512x768)

/-- The scores of a block of query projections `Q` against the stored keys (high part, low part), three passes. -/
def scoreOf (Q : FVec Ideal S512x768 .f32) (KH KL : FVec Ideal S2048x768 .bf16) : FVec Ideal S512x2048 .f32 :=
  addf (addf
      (matmul dot_S512x768_S2048x768_S512x2048_1_1_0_0_n_n none (truncf .bf16 Q bitsLt_bf16_f32) KH (constant S512x2048 .f32 0x00000000#32))
      (matmul dot_S512x768_S2048x768_S512x2048_1_1_0_0_n_n none (truncf .bf16 Q bitsLt_bf16_f32) KL (constant S512x2048 .f32 0x00000000#32)))
    (matmul dot_S512x768_S2048x768_S512x2048_1_1_0_0_n_n none (truncf .bf16 (subf Q Q) bitsLt_bf16_f32) KH (constant S512x2048 .f32 0x00000000#32))

theorem scores_eq (X : Vec Ideal S1x512x768 .f32) (HI LO : Vec Ideal S768x768 .bf16) (B : Vec Ideal S768 .f32)
    (KH KL : Vec Ideal S2048x768 .bf16) : k0_pay10 X HI LO B KH KL = scoreOf (queryProj X HI LO B) KH KL := rfl

theorem queryProj_at {X : Vec Ideal S1x512x768 .f32} {HI LO : Vec Ideal S768x768 .bf16} {B : Vec Ideal S768 .f32}
    {x : S1x512x768.Idx → ℝ} {hi lo : S768x768.Idx → ℝ} {b : S768.Idx → ℝ}
    (hX : IsR X x) (hHI : IsR HI hi) (hLO : IsR LO lo) (hlo : ∀ i, lo i = 0) (hB : IsR B b) (r : Fin 512) (e : Fin 768) :
    queryProj X HI LO B (ix2 r e) = (((∑ d : Fin 768, x (ix3 (0 : Fin 1) r d) * hi (ix2 d e)) + b (ix1 e) : ℝ) : EReal) := by
  unfold queryProj
  refine ((((((hX.shapeCast _).truncf .bf16 _).matmul0 dot_S512x768_S768x768_S512x768_1_0_0_1_n_n none (hHI.shapeCast _)).addf
      (((hX.shapeCast _).truncf .bf16 _).matmul0 dot_S512x768_S768x768_S512x768_1_0_0_1_n_n none (hLO.shapeCast _))).addf
      ((((hX.shapeCast _).subf (hX.shapeCast _)).truncf .bf16 _).matmul0 dot_S512x768_S768x768_S512x768_1_0_0_1_n_n none (hHI.shapeCast _))).addf
      ((hB.shapeCast _).broadcastTo _) (ix2 r e)).trans (congrArg _ ?_)
  dsimp only
  rw [shapeCast_self, shapeCast_self]
  simp only [hlo, mul_zero, sub_self, zero_mul, Finset.sum_const_zero, add_zero]
  rw [dot_queries, broadcastTo_1b_ab_apply, shapeCast_a_1a_apply]
  refine congrArg (· + _) (Finset.sum_congr rfl fun d _ => ?_)
  rw [shapeCast_1ab_ab_apply]

/-- On finite data with a zero low part of the keys, the three passes collapse to `Σ_e q(r,e)·k(t,e)`. -/
theorem scoreOf_at {Q : FVec Ideal S512x768 .f32} {KH KL : FVec Ideal S2048x768 .bf16}
    {q : S512x768.Idx → ℝ} {kh kl : S2048x768.Idx → ℝ}
    (hQ : IsR Q q) (hKH : IsR KH kh) (hKL : IsR KL kl) (hkl : ∀ i, kl i = 0) (r : Fin 512) (t : Fin 2048) :
    scoreOf Q KH KL (ix2 r t) = ((∑ e : Fin 768, q (ix2 r e) * kh (ix2 t e) : ℝ) : EReal) := by
  unfold scoreOf
  refine (((((hQ.truncf .bf16 _).matmul0 dot_S512x768_S2048x768_S512x2048_1_1_0_0_n_n none hKH).addf ((hQ.truncf .bf16 _).matmul0 dot_S512x768_S2048x768_S512x2048_1_1_0_0_n_n none hKL)).addf
      (((hQ.subf hQ).truncf .bf16 _).matmul0 dot_S512x768_S2048x768_S512x2048_1_1_0_0_n_n none hKH)) (ix2 r t)).trans (congrArg _ ?_)
  dsimp only
  simp only [hkl, mul_zero, sub_self, zero_mul, Finset.sum_const_zero, add_zero]
  exact dot_scores q kh r t

/-- The weights: `exp (tanh score)`, entry by entry. -/
theorem weights_at (X : Vec Ideal S1x512x768 .f32) (HI LO : Vec Ideal S768x768 .bf16) (B : Vec Ideal S768 .f32)
    (KH KL : Vec Ideal S2048x768 .bf16) (i : S512x2048.Idx) (s : ℝ) (hs : k0_pay10 X HI LO B KH KL i = ((s : ℝ) : EReal)) :
    k0_pay11 X HI LO B KH KL i = ((Real.exp (Real.tanh s) : ℝ) : EReal) := by
  show Ideal.exp (Ideal.tanh (k0_pay10 X HI LO B KH KL i)) = _
  rw [hs]; rfl

/-! ## The running column sums, and the final quotient -/

theorem lift_rows (h : S512x2048.Reduces [0] S2048) (t : Fin 2048) (k : Fin 512) : h.lift (ix1 t) k = ix2 k t :=
  funext fun ax => Fin.ext (by match ax with | ⟨0, _⟩ => rfl | ⟨1, _⟩ => rfl)

/-- The sum of the weights grows by this block's column sums. -/
theorem sumW_at {W : FVec Ideal S512x2048 .f32} {ACC : Vec Ideal S1x2048 .f32} {w : S512x2048.Idx → ℝ} {acc : S1x2048.Idx → ℝ}
    (hW : IsR W w) (hACC : IsR ACC acc) (u : Fin 1) (t : Fin 2048) :
    k0_pay1 W ACC (ix2 u t) = ((acc (ix2 u t) + ∑ r : Fin 512, w (ix2 r t) : ℝ) : EReal) := by
  unfold k0_pay1
  refine (((hACC.addf ((hW.multiReduction_add _ _ _ _).shapeCast _)).shapeCast _) (ix2 u t)).trans (congrArg _ ?_)
  rw [shapeCast_self]
  dsimp only
  rw [shapeCast_a_1a_apply]
  exact congrArg (_ + ·) (Finset.sum_congr rfl fun k _ => congrArg w (lift_rows _ t k))

/-- The sum of the weighted scores grows by this block's column sums of `w · qk`. -/
theorem sumN_at {QK W : FVec Ideal S512x2048 .f32} {ACC : Vec Ideal S1x2048 .f32} {qk w : S512x2048.Idx → ℝ} {acc : S1x2048.Idx → ℝ}
    (hQK : IsR QK qk) (hW : IsR W w) (hACC : IsR ACC acc) (u : Fin 1) (t : Fin 2048) :
    k0_pay2 QK W ACC (ix2 u t) = ((acc (ix2 u t) + ∑ r : Fin 512, w (ix2 r t) * qk (ix2 r t) : ℝ) : EReal) := by
  unfold k0_pay2
  refine (((hACC.addf (((hW.mulf hQK).multiReduction_add _ _ _ _).shapeCast _)).shapeCast _) (ix2 u t)).trans (congrArg _ ?_)
  rw [shapeCast_self]
  dsimp only
  rw [shapeCast_a_1a_apply]
  exact congrArg (_ + ·) (Finset.sum_congr rfl fun k _ => congrArg (fun i => w i * qk i) (lift_rows _ t k))

theorem scalar_eps : (Scalar.ofBits (F := Ideal) .f32 0x33D6BF95#32 : Ideal .f32) = ((Cert.Spec.eps : ℝ) : EReal) :=
  Cert.Spec.ofBits_eps

theorem scalar_zero : (Scalar.ofBits (F := Ideal) .f32 0x00000000#32 : Ideal .f32) = ((0 : ℝ) : EReal) :=
  Cert.Spec.ofBits_zero

/-- The output block: the finished sum of weighted scores over the finished sum of weights plus ε. -/
theorem quotient_at {N D : Vec Ideal S1x2048 .f32} {n d : S1x2048.Idx → ℝ} (hN : IsR N n) (hD : IsR D d)
    (hne : ∀ i, d i + Cert.Spec.eps ≠ 0) (u v : Fin 1) (t : Fin 2048) :
    k0_pay3 N D (ix3 u v t) = ((n (ix2 v t) / (d (ix2 v t) + Cert.Spec.eps) : ℝ) : EReal) := by
  unfold k0_pay3
  refine (((hN.divf (hD.addf (IsR.broadcast scalar_eps)) hne).shapeCast _) (ix3 u v t)).trans (congrArg _ ?_)
  rw [shapeCast_ab_1ab_apply]

/-- The two zero splats the running sums start from. -/
theorem zeroW_at (i : S1x2048.Idx) : (k0_pay7 : FVec Ideal S1x2048 .f32) i = ((0 : ℝ) : EReal) := by
  unfold k0_pay7
  rw [shapeCast_self]
  exact scalar_zero

theorem zeroN_at (i : S1x2048.Idx) : (k0_pay9 (k0_pay8 : FVec Ideal S1x2048 .f32)) i = ((0 : ℝ) : EReal) := by
  unfold k0_pay9 k0_pay8
  rw [shapeCast_self]
  exact scalar_zero

end Cert.KernelIdeal.Payloads

end
-- ==== Proof.Steps.lean ====
/-
  One grid point's work in the specification's terms.  With the point's input blocks and the carried scratch contents
  known as coercions of the specification's real arrays, each thing the body stores is again such a coercion: the
  keys of the batch (and a zero remainder), the block's scores and weights, each running column sum grown by the
  block's contribution, and at the last block the specification's result.
-/
import proofs.«119709_j28793460752827_2_alg».proof.Proof.Payloads

set_option maxRecDepth 16384

noncomputable section

open Idealize.ShloMosaic Idealize.ShloMosaic.ValueIdx Cert.RealLift

namespace Cert.KernelIdeal.Steps

open Cert.KernelIdeal Cert.KernelIdeal.Gen Cert.KernelIdeal.Payloads Cert.Spec

variable (x1 x2 : Act) (wq : Mat) (bq : Bias) (wk : Mat) (bk : Bias) (b : Fin 8) (j : ℕ)

/-- The keys of batch `b`: what the first query block of the batch stores as their high part. -/
theorem keys_hi {X : Vec Ideal S1x2048x768 .f32} {HI LO : Vec Ideal S768x768 .bf16} {B : Vec Ideal S768 .f32}
    (hX : IsR X (fun y => x2 (ix3 b (y 1) (y 2)))) (hHI : IsR HI wk) (hLO : IsR LO (fun _ => 0)) (hB : IsR B bk) :
    IsR (k0_pay5 X HI LO B) (fun y => proj x2 wk bk b (y 0) (y 1)) := fun y => by
  obtain ⟨t, e, rfl⟩ : ∃ (t : Fin 2048) (e : Fin 768), y = ix2 t e := ⟨y 0, y 1, eq_ix2 y⟩
  rw [keyHi_eq]
  exact proj_keys hX hHI hLO (fun _ => rfl) hB t e

/-- …and as their low part: zero. -/
theorem keys_lo {X : Vec Ideal S1x2048x768 .f32} {HI LO : Vec Ideal S768x768 .bf16} {B : Vec Ideal S768 .f32}
    (hX : IsR X (fun y => x2 (ix3 b (y 1) (y 2)))) (hHI : IsR HI wk) (hLO : IsR LO (fun _ => 0)) (hB : IsR B bk) :
    IsR (k0_pay6 X HI LO B) (fun _ => 0) := fun y => by
  obtain ⟨t, e, rfl⟩ : ∃ (t : Fin 2048) (e : Fin 768), y = ix2 t e := ⟨y 0, y 1, eq_ix2 y⟩
  exact keyLo_eq X HI LO B (ix2 t e) _ (proj_keys hX hHI hLO (fun _ => rfl) hB t e)

/-- The scores of query block `j` of batch `b` against the stored keys. -/
theorem scores_blk {X : Vec Ideal S1x512x768 .f32} {HI LO : Vec Ideal S768x768 .bf16} {B : Vec Ideal S768 .f32}
    {KH KL : Vec Ideal S2048x768 .bf16}
    (hX : IsR X (fun y => x1 (ix3 b (row j (y 1)) (y 2)))) (hHI : IsR HI wq) (hLO : IsR LO (fun _ => 0)) (hB : IsR B bq)
    (hKH : IsR KH (fun y => proj x2 wk bk b (y 0) (y 1))) (hKL : IsR KL (fun _ => 0)) :
    IsR (k0_pay10 X HI LO B KH KL) (fun y => score x1 x2 wq bq wk bk b (row j (y 0)) (y 1)) := fun y => by
  obtain ⟨r, t, rfl⟩ : ∃ (r : Fin 512) (t : Fin 2048), y = ix2 r t := ⟨y 0, y 1, eq_ix2 y⟩
  rw [scores_eq]
  have hQ : IsR (queryProj X HI LO B) (fun y => proj x1 wq bq b (row j (y 0)) (y 1)) := fun y => by
    obtain ⟨r, e, rfl⟩ : ∃ (r : Fin 512) (e : Fin 768), y = ix2 r e := ⟨y 0, y 1, eq_ix2 y⟩
    exact queryProj_at hX hHI hLO (fun _ => rfl) hB r e
  exact scoreOf_at hQ hKH hKL (fun _ => rfl) r t

/-- Its weights. -/
theorem weights_blk {X : Vec Ideal S1x512x768 .f32} {HI LO : Vec Ideal S768x768 .bf16} {B : Vec Ideal S768 .f32}
    {KH KL : Vec Ideal S2048x768 .bf16}
    (hX : IsR X (fun y => x1 (ix3 b (row j (y 1)) (y 2)))) (hHI : IsR HI wq) (hLO : IsR LO (fun _ => 0)) (hB : IsR B bq)
    (hKH : IsR KH (fun y => proj x2 wk bk b (y 0) (y 1))) (hKL : IsR KL (fun _ => 0)) :
    IsR (k0_pay11 X HI LO B KH KL) (fun y => wgt x1 x2 wq bq wk bk b (row j (y 0)) (y 1)) := fun y =>
  weights_at X HI LO B KH KL y _ (scores_blk x1 x2 wq bq wk bk b j hX hHI hLO hB hKH hKL y)

/-- The running sum of the weights after this block: what was there, plus the block's column sums. -/
theorem sumW_step {W : FVec Ideal S512x2048 .f32} {ACC : Vec Ideal S1x2048 .f32} {acc : S1x2048.Idx → ℝ}
    (hW : IsR W (fun y => wgt x1 x2 wq bq wk bk b (row j (y 0)) (y 1))) (hACC : IsR ACC acc) :
    IsR (k0_pay1 W ACC) (fun y => acc y + blkW x1 x2 wq bq wk bk b j (y 1)) := fun y => by
  obtain ⟨u, t, rfl⟩ : ∃ (u : Fin 1) (t : Fin 2048), y = ix2 u t := ⟨y 0, y 1, eq_ix2 y⟩
  exact sumW_at hW hACC u t

/-- The running sum of the weighted scores after this block. -/
theorem sumN_step {QK W : FVec Ideal S512x2048 .f32} {ACC : Vec Ideal S1x2048 .f32} {acc : S1x2048.Idx → ℝ}
    (hQK : IsR QK (fun y => score x1 x2 wq bq wk bk b (row j (y 0)) (y 1)))
    (hW : IsR W (fun y => wgt x1 x2 wq bq wk bk b (row j (y 0)) (y 1))) (hACC : IsR ACC acc) :
    IsR (k0_pay2 QK W ACC) (fun y => acc y + blkN x1 x2 wq bq wk bk b j (y 1)) := fun y => by
  obtain ⟨u, t, rfl⟩ : ∃ (u : Fin 1) (t : Fin 2048), y = ix2 u t := ⟨y 0, y 1, eq_ix2 y⟩
  exact sumN_at hQK hW hACC u t

/-- The output block after the last query block: the specification's result for batch `b`. -/
theorem out_step {N D : Vec Ideal S1x2048 .f32}
    (hN : IsR N (fun y => accN x1 x2 wq bq wk bk b 3 (y 1))) (hD : IsR D (fun y => accW x1 x2 wq bq wk bk b 3 (y 1))) :
    IsR (k0_pay3 N D) (fun y => out x1 x2 wq bq wk bk b (y 2)) := fun y => by
  obtain ⟨u, v, t, rfl⟩ : ∃ (u v : Fin 1) (t : Fin 2048), y = ix3 u v t := ⟨y 0, y 1, y 2, eq_ix3 y⟩
  have hpos : ∀ s : Fin 2048, accW x1 x2 wq bq wk bk b 3 s + eps ≠ 0 := fun s =>
    ((congrArg (· + eps) (accW_three x1 x2 wq bq wk bk b s)).trans rfl).trans_ne (den_pos x1 x2 wq bq wk bk b s).ne'
  have hne : ∀ i : S1x2048.Idx, accW x1 x2 wq bq wk bk b 3 (i 1) + eps ≠ 0 := fun i => hpos (i 1)
  refine (quotient_at hN hD hne u v t).trans (congrArg _ ?_)
  exact (out_eq x1 x2 wq bq wk bk b t).symm

end Cert.KernelIdeal.Steps

end
-- ==== Proof.Invariant.lean ====
/-
  THE INVARIANT.  After the body at grid point `t = 4·n + j` (query block `j` of batch `n`), on finite inputs, the four
  scratch buffers the kernel carries between points hold: the keys of batch `n` (`x2·Wk + bk`), a zero remainder, and the
  two running column sums over query blocks `0 … j` of batch `n`; and after the last block (`j = 3`) the output block
  holds the specification's result for batch `n`.  By induction on the point: the first block of a batch stores the keys
  and starts the sums, every later block leaves the keys and adds its contribution.
-/
import proofs.«119709_j28793460752827_2_alg».proof.Proof.Gen.KernelIdeal.Frame
import proofs.«119709_j28793460752827_2_alg».proof.Proof.Pieces
import proofs.«119709_j28793460752827_2_alg».proof.Proof.Blocks
import proofs.«119709_j28793460752827_2_alg».proof.Proof.Steps

set_option maxRecDepth 16384

noncomputable section

open Idealize.ShloMosaic Idealize.ShloMosaic.TcCoe Idealize.SL.Sem Idealize.ShloMosaic.ValueIdx Cert.RealLift
open Idealize.ShloMosaic.Pipeline (Dat)

namespace Cert.KernelIdeal.Invariant

open Cert.KernelIdeal Cert.KernelIdeal.Gen Cert.KernelIdeal.Blocks Cert.KernelIdeal.Steps Cert.KernelIdeal.Pieces Cert.Spec

variable {m : (ℓ : Loc nD τ sig) → Buf (Elt Ideal) ℓ} {c : Dev nD} (A : Args m c)

/-- The keys of batch `b`, as the first scratch holds them. -/
def keysOf (b : Fin 8) : Vec Ideal S2048x768 .bf16 := fun y => ((proj A.x2 A.wk A.bk b (y 0) (y 1) : ℝ) : EReal)
/-- The zero remainder, as the second scratch holds it. -/
def zeroKeys : Vec Ideal S2048x768 .bf16 := fun _ => ((0 : ℝ) : EReal)
/-- The running sum of the weights over query blocks `0 … j` of batch `b`. -/
def sumW (b : Fin 8) (j : ℕ) : Vec Ideal S1x2048 .f32 := fun y => ((accW A.x1 A.x2 A.wq A.bq A.wk A.bk b j (y 1) : ℝ) : EReal)
/-- The running sum of the weighted scores. -/
def sumN (b : Fin 8) (j : ℕ) : Vec Ideal S1x2048 .f32 := fun y => ((accN A.x1 A.x2 A.wq A.bq A.wk A.bk b j (y 1) : ℝ) : EReal)
/-- The output block of batch `b`. -/
def outOf (b : Fin 8) : Vec Ideal S1x1x2048 .f32 := fun y => ((out A.x1 A.x2 A.wq A.bq A.wk A.bk b (y 2) : ℝ) : EReal)

/-- The four scratch buffers after query block `j` of batch `b`. -/
def stateOf (b : Fin 8) (j : ℕ) : Vec Ideal S2048x768 .bf16 × Vec Ideal S2048x768 .bf16 × Vec Ideal S1x2048 .f32 × Vec Ideal S1x2048 .f32 :=
  (keysOf A b, zeroKeys, sumW A b j, sumN A b j)

theorem keysOf_isR (b : Fin 8) : IsR (keysOf A b) (fun y => proj A.x2 A.wk A.bk b (y 0) (y 1)) := fun _ => rfl
theorem zeroKeys_isR : IsR (zeroKeys : Vec Ideal S2048x768 .bf16) (fun _ => 0) := fun _ => rfl
theorem sumW_isR (b : Fin 8) (j : ℕ) : IsR (sumW A b j) (fun y => accW A.x1 A.x2 A.wq A.bq A.wk A.bk b j (y 1)) := fun _ => rfl
theorem sumN_isR (b : Fin 8) (j : ℕ) : IsR (sumN A b j) (fun y => accN A.x1 A.x2 A.wq A.bq A.wk A.bk b j (y 1)) := fun _ => rfl

/-- The weights and the scores of the point's query block against the batch's keys. -/
theorem weights_here (t : Fin cfg0.N) (j : ℕ) (hj : t.val % 4 = j) :
    IsR (k0_pay11 (iblk m c 0 t) (iblk m c 2 t) (iblk m c 3 t) (iblk m c 4 t) (keysOf A (bat t)) zeroKeys)
      (fun y => wgt A.x1 A.x2 A.wq A.bq A.wk A.bk (bat t) (row j (y 0)) (y 1)) := by
  have hq := blk_queries A t
  rw [hj] at hq
  exact weights_blk A.x1 A.x2 A.wq A.bq A.wk A.bk (bat t) j hq (blk_wqHi A t) (blk_wqLo A t) (blk_bq A t) (keysOf_isR A _) zeroKeys_isR

theorem scores_here (t : Fin cfg0.N) (j : ℕ) (hj : t.val % 4 = j) :
    IsR (k0_pay10 (iblk m c 0 t) (iblk m c 2 t) (iblk m c 3 t) (iblk m c 4 t) (keysOf A (bat t)) zeroKeys)
      (fun y => score A.x1 A.x2 A.wq A.bq A.wk A.bk (bat t) (row j (y 0)) (y 1)) := by
  have hq := blk_queries A t
  rw [hj] at hq
  exact scores_blk A.x1 A.x2 A.wq A.bq A.wk A.bk (bat t) j hq (blk_wqHi A t) (blk_wqLo A t) (blk_bq A t) (keysOf_isR A _) zeroKeys_isR

/-- What the point's body stores as the keys: the keys of its batch, and a zero remainder. -/
theorem keys_here (t : Fin cfg0.N) :
    k0_pay5 (iblk m c 1 t) (iblk m c 5 t) (iblk m c 6 t) (iblk m c 7 t) = keysOf A (bat t) :=
  funext fun y => keys_hi A.x2 A.wk A.bk (bat t) (blk_keys A t) (blk_wkHi A t) (blk_wkLo A t) (blk_bk A t) y

include A in
theorem zeroKeys_here (t : Fin cfg0.N) :
    k0_pay6 (iblk m c 1 t) (iblk m c 5 t) (iblk m c 6 t) (iblk m c 7 t) = zeroKeys :=
  funext fun y => keys_lo A.x2 A.wk A.bk (bat t) (blk_keys A t) (blk_wkHi A t) (blk_wkLo A t) (blk_bk A t) y

/-- One step of the two running sums at a point of offset `j + 1` in its batch, from their values after offset `j`. -/
theorem sumW_next (t : Fin cfg0.N) (j : ℕ) (hj : t.val % 4 = j + 1) :
    k0_pay1 (k0_pay11 (iblk m c 0 t) (iblk m c 2 t) (iblk m c 3 t) (iblk m c 4 t) (keysOf A (bat t)) zeroKeys) (sumW A (bat t) j)
      = sumW A (bat t) (j + 1) :=
  funext fun y => ((sumW_step A.x1 A.x2 A.wq A.bq A.wk A.bk (bat t) (j + 1) (weights_here A t (j + 1) hj) (sumW_isR A (bat t) j)) y).trans
    (congrArg _ (accW_succ A.x1 A.x2 A.wq A.bq A.wk A.bk (bat t) j (y 1)).symm)

theorem sumN_next (t : Fin cfg0.N) (j : ℕ) (hj : t.val % 4 = j + 1) :
    k0_pay2 (k0_pay10 (iblk m c 0 t) (iblk m c 2 t) (iblk m c 3 t) (iblk m c 4 t) (keysOf A (bat t)) zeroKeys)
        (k0_pay11 (iblk m c 0 t) (iblk m c 2 t) (iblk m c 3 t) (iblk m c 4 t) (keysOf A (bat t)) zeroKeys) (sumN A (bat t) j)
      = sumN A (bat t) (j + 1) :=
  funext fun y => ((sumN_step A.x1 A.x2 A.wq A.bq A.wk A.bk (bat t) (j + 1) (scores_here A t (j + 1) hj) (weights_here A t (j + 1) hj)
      (sumN_isR A (bat t) j)) y).trans (congrArg _ (accN_succ A.x1 A.x2 A.wq A.bq A.wk A.bk (bat t) j (y 1)).symm)

/-- The first step, from the zero splats. -/
theorem sumW_first_here (t : Fin cfg0.N) (h0 : t.val % 4 = 0) :
    k0_pay1 (k0_pay11 (iblk m c 0 t) (iblk m c 2 t) (iblk m c 3 t) (iblk m c 4 t) (keysOf A (bat t)) zeroKeys) (k0_pay7 (F := Ideal)) = sumW A (bat t) 0 :=
  funext fun y => ((sumW_step A.x1 A.x2 A.wq A.bq A.wk A.bk (bat t) 0 (weights_here A t 0 h0) (acc := fun _ => 0) Payloads.zeroW_at) y).trans
    (congrArg _ ((zero_add _).trans (accW_zero A.x1 A.x2 A.wq A.bq A.wk A.bk (bat t) (y 1)).symm))

theorem sumN_first_here (t : Fin cfg0.N) (h0 : t.val % 4 = 0) :
    k0_pay2 (k0_pay10 (iblk m c 0 t) (iblk m c 2 t) (iblk m c 3 t) (iblk m c 4 t) (keysOf A (bat t)) zeroKeys)
        (k0_pay11 (iblk m c 0 t) (iblk m c 2 t) (iblk m c 3 t) (iblk m c 4 t) (keysOf A (bat t)) zeroKeys) (k0_pay9 (k0_pay8 (F := Ideal))) = sumN A (bat t) 0 :=
  funext fun y => ((sumN_step A.x1 A.x2 A.wq A.bq A.wk A.bk (bat t) 0 (scores_here A t 0 h0) (weights_here A t 0 h0)
      (acc := fun _ => 0) Payloads.zeroN_at) y).trans
    (congrArg _ ((zero_add _).trans (accN_zero A.x1 A.x2 A.wq A.bq A.wk A.bk (bat t) (y 1)).symm))

/-! ## The three cases -/

/-- The first query block of a batch: the keys stored, the sums started. -/
theorem first_point (t : Fin cfg0.N) (h0 : t.val % 4 = 0) : (outsAt0 m c t.val t.isLt).2 = stateOf A (bat t) 0 := by
  have h1 : ¬t.val % 4 = 3 := by omega
  have hA := outsAt0_A m c t h0 h1
  rw [keyHi_first, keyLo_first, sumW_first, sumN_first, keys_here A t, zeroKeys_here A t, sumW_first_here A t h0,
    sumN_first_here A t h0] at hA
  rw [hA]
  rfl

/-- A later query block (offset `j + 1` in its batch): the keys kept, the sums grown — and what the output block holds if
    this is the last block. -/
theorem later_point (t : Fin cfg0.N) (j : ℕ) (hj : t.val % 4 = j + 1)
    (prev : (outsAt0 m c (t.val - 1) (Nat.lt_of_le_of_lt (Nat.sub_le _ _) t.isLt)).2 = stateOf A (bat t) j) :
    (outsAt0 m c t.val t.isLt).2 = stateOf A (bat t) (j + 1)
      ∧ (t.val % 4 = 3 → (outsAt0 m c t.val t.isLt).1 = outOf A (bat t)) := by
  have h0 : ¬t.val % 4 = 0 := by omega
  have e0 : (outsAt0 m c (t.val - 1) (Nat.lt_of_le_of_lt (Nat.sub_le _ _) t.isLt)).2.1 = keysOf A (bat t) := congrArg (·.1) prev
  have e1 : (outsAt0 m c (t.val - 1) (Nat.lt_of_le_of_lt (Nat.sub_le _ _) t.isLt)).2.2.1 = zeroKeys := congrArg (·.2.1) prev
  have e2 : (outsAt0 m c (t.val - 1) (Nat.lt_of_le_of_lt (Nat.sub_le _ _) t.isLt)).2.2.2.1 = sumW A (bat t) j := congrArg (·.2.2.1) prev
  have e3 : (outsAt0 m c (t.val - 1) (Nat.lt_of_le_of_lt (Nat.sub_le _ _) t.isLt)).2.2.2.2 = sumN A (bat t) j := congrArg (·.2.2.2) prev
  by_cases h1 : t.val % 4 = 3
  · have hC := outsAt0_C m c t h0 h1
    rw [e0, e1, e2, e3] at hC
    rw [sumW_last, sumN_last, out_last] at hC
    simp only [sout0_C_0, sout0_C_1] at hC
    rw [sumW_next A t j hj, sumN_next A t j hj] at hC
    rw [hC]
    refine ⟨rfl, fun _ => ?_⟩
    have hj2 : j + 1 = 3 := by omega
    show k0_pay3 (sumN A (bat t) (j + 1)) (sumW A (bat t) (j + 1)) = _
    rw [hj2]
    exact funext fun y => out_step A.x1 A.x2 A.wq A.bq A.wk A.bk (bat t) (sumN_isR A (bat t) 3) (sumW_isR A (bat t) 3) y
  · have hB := outsAt0_B m c t h0 h1
    rw [e0, e1, e2, e3] at hB
    rw [sumW_mid, sumN_mid] at hB
    simp only [sout0_B_0, sout0_B_1] at hB
    rw [sumW_next A t j hj, sumN_next A t j hj] at hB
    rw [hB]
    exact ⟨rfl, fun h => absurd h h1⟩

/-! ## The induction over the grid's points -/

theorem bat_pred (n : ℕ) (h : n + 1 < cfg0.N) (hne : ¬(n + 1) % 4 = 0) :
    bat ⟨n, Nat.lt_of_succ_lt h⟩ = bat ⟨n + 1, h⟩ := Fin.ext (by show n / 4 = (n + 1) / 4; omega)

/-- After every point the scratch buffers hold the batch's keys and the running sums up to that point's block. -/
theorem scratch_after : ∀ (n : ℕ) (h : n < cfg0.N), (outsAt0 m c n h).2 = stateOf A (bat ⟨n, h⟩) (n % 4)
  | 0, h => first_point A ⟨0, h⟩ rfl
  | n + 1, h => by
    by_cases h0 : (n + 1) % 4 = 0
    · rw [h0]; exact first_point A ⟨n + 1, h⟩ h0
    · have hj : (n + 1) % 4 = n % 4 + 1 := by omega
      have ih := scratch_after n (Nat.lt_of_succ_lt h)
      rw [bat_pred n h h0] at ih
      rw [hj]
      exact (later_point A ⟨n + 1, h⟩ (n % 4) hj ih).1

/-- After the last query block of a batch the output block holds the specification's result for the batch. -/
theorem out_after (t : Fin cfg0.N) (h3 : t.val % 4 = 3) : (outsAt0 m c t.val t.isLt).1 = outOf A (bat t) := by
  obtain ⟨n, h⟩ := t
  cases n with
  | zero => exact absurd h3 (by show ¬0 % 4 = 3; decide)
  | succ n =>
    have h0 : ¬(n + 1) % 4 = 0 := by have : (n + 1) % 4 = 3 := h3; omega
    have hj : (n + 1) % 4 = n % 4 + 1 := by omega
    have ih := scratch_after A n (Nat.lt_of_succ_lt h)
    rw [bat_pred n h h0] at ih
    exact (later_point A ⟨n + 1, h⟩ (n % 4) hj ih).2 h3

end Cert.KernelIdeal.Invariant

end
-- ==== Proof.KernelResult.lean ====
/-
  THE KERNEL'S RESULT.  Only the last query block of a batch writes the output block back, and what it writes is the
  specification's result for the batch (the invariant); those eight blocks tile the region's [8, 1, 2048] array, so
  the array ends holding the result at every index; the reshape after the region reads it as [8, 2048].
-/
import proofs.«119709_j28793460752827_2_alg».proof.Proof.Invariant
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx Cert.RealLift
open Idealize.ShloMosaic.Pipeline (Dat)

namespace Cert.KernelIdeal.Result

open Cert.KernelIdeal Cert.KernelIdeal.Gen Cert.KernelIdeal.Blocks Cert.KernelIdeal.Invariant Cert.Spec

variable {m : (ℓ : Loc nD τ sig) → Buf (Elt Ideal) ℓ} {c : Dev nD} (A : Args m c)

/-- The region's array [8, 1, 2048] after the run: the specification's result at (batch, ·, key position). -/
def regionOut : S8x1x2048.Idx → EReal := fun i => ((out A.x1 A.x2 A.wq A.bq A.wk A.bk (i 0) (i 2) : ℝ) : EReal)

/-- The program's result [8, 2048]. -/
def resultOf : S8x2048.Idx → EReal := fun i => ((out A.x1 A.x2 A.wq A.bq A.wk A.bk (i 0) (i 1) : ℝ) : EReal)

/-- What the last query block of a batch writes back is that batch's block of `regionOut`. -/
theorem flushed_eq (t : Fin cfg0.N) (hf : (cfg0.win 8).flush t = true) :
    (dats m 0 c).flushed 8 t = ((cfg0.win 8).blk t).view.read (Elt Ideal) (regionOut A) := by
  have h3 : t.val % 4 = 3 := (flush0_8 t).mp hf
  show (cfg0.win 8).cut (grid0.coords t) ((dats m 0 c).after 8 t) = _
  rw [after0_8, out_after A t h3]
  obtain ⟨-, -, -, -, -, -, e0, e1, e2⟩ := idx_facts t
  funext y
  rw [View.read_apply]
  have hy : (y 0).val < 1 := Nat.lt_of_lt_of_le (y 0).isLt ((cfg0.win 8).xsize_le (grid0.coords t) 0)
  show outOf A (bat t) ((cfg0.win 8).xinj (grid0.coords t) y) = regionOut A (((cfg0.win 8).blk t).view.emb y)
  unfold outOf regionOut
  refine congrArg (fun r : ℝ => (r : EReal)) (congrArg₂ (out A.x1 A.x2 A.wq A.bq A.wk A.bk) (Fin.ext ?_) (Fin.ext ?_))
  · show t.val / 4 = win0_8.index t (0 : Fin 3) * 1 + 1 * (y 0).val
    rw [e0]; omega
  · show (y 2).val = win0_8.index t (2 : Fin 3) * 2048 + 1 * (y 2).val
    rw [e2]; omega

/-- An index of the region's array is in point `t`'s block iff each coordinate is in the block's range on its axis. -/
theorem mem_blk (t : Fin cfg0.N) (i : S8x1x2048.Idx) :
    i ∈ ((cfg0.win 8).blk t).view.set ↔ ∀ a : Fin 3, win0_8.index t a * S1x1x2048.size a ≤ (i a).val ∧ (i a).val < win0_8.index t a * S1x1x2048.size a + S1x1x2048.size a := by
  show i ∈ ((View.whole main_v8).slice (win0_8.rect t)).set ↔ _
  rw [View.set_slice_whole, Rect.mem_set_unit]
  exact Iff.rfl

/-- Every index of the region's array is in the block the last query block of its batch writes back. -/
theorem covered (i : S8x1x2048.Idx) : ∃ t : Fin cfg0.N, (cfg0.win 8).flush t = true ∧ i ∈ ((cfg0.win 8).blk t).view.set := by
  have hN : cfg0.N = 32 := N_0
  have h0 : (i 0).val < 8 := (i 0).isLt
  have h1 : (i 1).val < 1 := (i 1).isLt
  have h2 : (i 2).val < 2048 := (i 2).isLt
  have ht : 4 * (i 0).val + 3 < cfg0.N := by omega
  refine ⟨⟨4 * (i 0).val + 3, ht⟩, (flush0_8 _).mpr (by show (4 * (i 0).val + 3) % 4 = 3; omega), ?_⟩
  obtain ⟨-, -, -, -, -, -, e0, e1, e2⟩ := idx_facts ⟨4 * (i 0).val + 3, ht⟩
  rw [mem_blk]
  intro a
  match a with
  | ⟨0, _⟩ =>
    show win0_8.index ⟨4 * (i 0).val + 3, ht⟩ (0 : Fin 3) * 1 ≤ (i 0).val ∧ (i 0).val < win0_8.index ⟨4 * (i 0).val + 3, ht⟩ (0 : Fin 3) * 1 + 1
    rw [e0]; show (4 * (i 0).val + 3) / 4 * 1 ≤ (i 0).val ∧ (i 0).val < (4 * (i 0).val + 3) / 4 * 1 + 1; omega
  | ⟨1, _⟩ =>
    show win0_8.index ⟨4 * (i 0).val + 3, ht⟩ (1 : Fin 3) * 1 ≤ (i 1).val ∧ (i 1).val < win0_8.index ⟨4 * (i 0).val + 3, ht⟩ (1 : Fin 3) * 1 + 1
    rw [e1]; omega
  | ⟨2, _⟩ =>
    show win0_8.index ⟨4 * (i 0).val + 3, ht⟩ (2 : Fin 3) * 2048 ≤ (i 2).val ∧ (i 2).val < win0_8.index ⟨4 * (i 0).val + 3, ht⟩ (2 : Fin 3) * 2048 + 2048
    rw [e2]; omega

/-- So the region's array ends holding `regionOut`. -/
theorem region_final : (dats m 0 c).arrAt 8 cfg0.N = regionOut A :=
  (dats m 0 c).arrAt_eq_of_cover 8 (regionOut A) (flushed_eq A) covered

/-- The reshape after the region: [8, 1, 2048] read as [8, 2048]. -/
theorem tail_eq : Pipeline.afterTail₀ cfgs (dats m) 0 (V0 m) [hostOps1] c main_v9 = resultOf A := by
  have hreg : Pipeline.withArrays (cfgs 0).spec c (V0 m c) (fun w => (dats m 0 c).arrAt w (cfgs 0).N) (Proc.devRef .tc main_v8)
      = regionOut A :=
    (Pipeline.withArrays_arr spec0 launch0.win.arr_inj c _ _ 8).trans (region_final A)
  unfold Pipeline.afterTail₀
  show StableHlo.after hostOps1 _ (Proc.devRef .tc main_v9) = _
  after_results
  funext i
  obtain ⟨b, t, rfl⟩ : ∃ (b : Fin 8) (t : Fin 2048), i = ix2 b t := ⟨i 0, i 1, eq_ix2 i⟩
  show shapeCast S8x2048 (Pipeline.withArrays (cfgs 0).spec c (V0 m c) (fun w => (dats m 0 c).arrAt w (cfgs 0).N) (Proc.devRef .tc main_v8))
    shapeCasts_S8x1x2048_S8x2048 (ix2 b t) = resultOf A (ix2 b t)
  rw [hreg]
  exact shapeCast_apply (regionOut A) shapeCasts_S8x1x2048_S8x2048 (ix2 b t) (ix3 b (0 : Fin 1) t) (by
    rw [Shape.rowMajor_val_three, Shape.rowMajor_val_two]
    show (b.val * 1 + 0) * 2048 + t.val = b.val * 2048 + t.val
    omega)

/-- THE RUN, READ: on finite arguments every weakly fair execution of the kernel's program ends with its result at the
    specification's `out` and its arguments unchanged. -/
theorem run (m : (ℓ : Loc nD τ sig) → Buf (Elt Ideal) ℓ) (ρ : Dev nD → PrngReg) (A : ∀ c : Dev nD, Args m c) :
    θ_run defs (onTc (τ := τ) (main (F := Ideal))) ⟨m, fun _ => 0, ρ⟩ fun r => ∀ c : Dev nD,
      r.2.mem ((c.tc : Thread nD τ).loc main_v9) = resultOf (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (tail_eq (A c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c)))⟩)
    (run_main m ρ)

end Cert.KernelIdeal.Result

end
-- ==== Proof.RefValue.lean ====
/-
  THE REFERENCE IS THE SPECIFICATION.  On finite arguments every stage of the reference program — the two projections,
  the scores, the weights `exp (tanh ·)`, the denominator (the sum of the weights over the query positions plus ε, kept
  as a unit axis and broadcast back), the normalized weights times the scores, and the final sum over the query
  positions — is the coercion of the real array the specification names, read through the generated read-at-an-index
  lemmas one operation at a time.
-/
import proofs.«119709_j28793460752827_2_alg».proof.Proof.Gen.ReferenceIdeal.Read
import proofs.«119709_j28793460752827_2_alg».proof.Proof.LibRealLift
import proofs.«119709_j28793460752827_2_alg».proof.Proof.Spec

set_option maxRecDepth 16384

noncomputable section

open Idealize.ShloMosaic Idealize.ShloMosaic.ValueIdx Cert.RealLift

namespace Cert.ReferenceIdeal.RefValue

open Cert.ReferenceIdeal Cert.ReferenceIdeal.Read Cert.Spec

variable {X1 X2 : S8x2048x768.Idx → EReal} {WQ : S768x768.Idx → EReal} {BQ : S768.Idx → EReal}
  {WK : S768x768.Idx → EReal} {BK : S768.Idx → EReal}
  {x1 x2 : Act} {wq : Mat} {bq : Bias} {wk : Mat} {bk : Bias}
  (h1 : IsR X1 x1) (h2 : IsR X2 x2) (hwq : IsR WQ wq) (hbq : IsR BQ bq) (hwk : IsR WK wk) (hbk : IsR BK bk)

include h1 hwq hbq in
/-- The query projection `x1·Wq + bq`. -/
theorem q_isR : IsR (val_main_v3 (F := Ideal) X1 WQ BQ) (fun i => proj x1 wq bq (i 0) (i 1) (i 2)) := fun i => by
  rw [val_main_v3_apply, val_main_v0_apply, val_main_v2_apply, val_main_v1_apply]
  show (∑ k : Fin 768, X1 (lidx_main_v0 i k) * WQ (ridx_main_v0 i k)) + BQ (idx_main_v1 (idx_main_v2 i)) = _
  rw [sum_mul_coe Finset.univ (fun k => X1 (lidx_main_v0 i k)) (fun k => WQ (ridx_main_v0 i k)) (fun k => x1 (lidx_main_v0 i k))
    (fun k => wq (ridx_main_v0 i k)) (fun k => h1 _) (fun k => hwq _), hbq _, ← EReal.coe_add]
  refine congrArg _ ?_
  unfold proj
  refine congrArg₂ (· + ·) (Finset.sum_congr rfl fun k _ => congrArg₂ (· * ·) (congrArg x1 ?_) (congrArg wq ?_)) (congrArg bq ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

include h2 hwk hbk in
/-- The key projection `x2·Wk + bk`. -/
theorem k_isR : IsR (val_main_v7 (F := Ideal) X2 WK BK) (fun i => proj x2 wk bk (i 0) (i 1) (i 2)) := fun i => by
  rw [val_main_v7_apply, val_main_v4_apply, val_main_v6_apply, val_main_v5_apply]
  show (∑ k : Fin 768, X2 (lidx_main_v4 i k) * WK (ridx_main_v4 i k)) + BK (idx_main_v5 (idx_main_v6 i)) = _
  rw [sum_mul_coe Finset.univ (fun k => X2 (lidx_main_v4 i k)) (fun k => WK (ridx_main_v4 i k)) (fun k => x2 (lidx_main_v4 i k))
    (fun k => wk (ridx_main_v4 i k)) (fun k => h2 _) (fun k => hwk _), hbk _, ← EReal.coe_add]
  refine congrArg _ ?_
  unfold proj
  refine congrArg₂ (· + ·) (Finset.sum_congr rfl fun k _ => congrArg₂ (· * ·) (congrArg x2 ?_) (congrArg wk ?_)) (congrArg bk ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

include h1 h2 hwq hbq hwk hbk in
/-- The scores. -/
theorem qk_isR : IsR (val_main_v8 (F := Ideal) X1 X2 WQ BQ WK BK) (fun i => score x1 x2 wq bq wk bk (i 0) (i 1) (i 2)) := fun i => by
  rw [val_main_v8_apply]
  rw [sum_mul_coe Finset.univ (fun k => val_main_v3 (F := Ideal) X1 WQ BQ (lidx_main_v8 i k))
    (fun k => val_main_v7 (F := Ideal) X2 WK BK (ridx_main_v8 i k)) _ _ (fun k => q_isR h1 hwq hbq _) (fun k => k_isR h2 hwk hbk _)]
  rfl

include h1 h2 hwq hbq hwk hbk in
/-- The weights. -/
theorem w_isR : IsR (val_main_v10 (F := Ideal) X1 X2 WQ BQ WK BK) (fun i => wgt x1 x2 wq bq wk bk (i 0) (i 1) (i 2)) := fun i => by
  rw [val_main_v10_apply, val_main_v9_apply, qk_isR h1 h2 hwq hbq hwk hbk i]
  rfl

include h1 h2 hwq hbq hwk hbk in
/-- The denominator, broadcast back over the query positions. -/
theorem den_isR : IsR (val_main_v15 (F := Ideal) X1 X2 WQ BQ WK BK) (fun i => den x1 x2 wq bq wk bk (i 0) (i 2)) := fun i => by
  rw [val_main_v15_apply, val_main_v14_apply, val_main_v12_apply, val_main_v13_apply, val_main_cst_0_apply, val_main_v11_apply,
    val_main_cst_apply]
  show (Ideal.ofBits .f32 0x00000000#32 + ∑ k : Fin 2048, val_main_v10 (F := Ideal) X1 X2 WQ BQ WK BK (idx_main_v11 (idx_main_v12 (idx_main_v15 i)) k))
    + Ideal.ofBits .f32 0x33D6BF95#32 = _
  rw [sum_coe Finset.univ _ _ (fun k => w_isR h1 h2 hwq hbq hwk hbk _), ofBits_zero, ofBits_eps, ← EReal.coe_add, ← EReal.coe_add]
  refine congrArg _ ?_
  unfold den
  rw [zero_add]
  rfl

include h1 h2 hwq hbq hwk hbk in
/-- The normalized weights times the scores. -/
theorem term_isR : IsR (val_main_v17 (F := Ideal) X1 X2 WQ BQ WK BK)
    (fun i => wgt x1 x2 wq bq wk bk (i 0) (i 1) (i 2) / den x1 x2 wq bq wk bk (i 0) (i 2) * score x1 x2 wq bq wk bk (i 0) (i 1) (i 2)) := fun i => by
  rw [val_main_v17_apply, val_main_v16_apply, w_isR h1 h2 hwq hbq hwk hbk i, den_isR h1 h2 hwq hbq hwk hbk i, qk_isR h1 h2 hwq hbq hwk hbk i]
  show Ideal.div _ _ * _ = _
  exact (congrArg (· * _) (IsR.div_coe _ _ (den_pos x1 x2 wq bq wk bk _ _).ne')).trans (EReal.coe_mul _ _).symm

include h1 h2 hwq hbq hwk hbk in
/-- THE REFERENCE'S RESULT: the specification's `out` at (batch, key position). -/
theorem result_isR : IsR (val_main_v18 (F := Ideal) X1 X2 WQ BQ WK BK) (fun i => out x1 x2 wq bq wk bk (i 0) (i 1)) := fun i => by
  rw [val_main_v18_apply, val_main_cst_1_apply]
  show Ideal.ofBits .f32 0x00000000#32 + ∑ k : Fin 2048, val_main_v17 (F := Ideal) X1 X2 WQ BQ WK BK (idx_main_v18 i k) = _
  rw [sum_coe Finset.univ _ _ (fun k => term_isR h1 h2 hwq hbq hwk hbk _), ofBits_zero, ← EReal.coe_add]
  refine congrArg _ ?_
  unfold out
  rw [zero_add]
  rfl

end Cert.ReferenceIdeal.RefValue

end
-- ==== Proof.Finite.lean ====
/-
  FINITENESS.  The precondition says, of each of the six argument arrays, that every entry `x` satisfies `|x| < +∞`.
  On the extended reals that leaves exactly the real numbers, so each array is the coercion of its array of real
  parts — the bundled hypothesis the kernel-side modules work under.
-/
import proofs.«119709_j28793460752827_2_alg».proof.Defs
import proofs.«119709_j28793460752827_2_alg».proof.Proof.Gen.Pre_finite_inputs
import proofs.«119709_j28793460752827_2_alg».proof.Proof.Blocks
import Idealize.ShloMosaic.Lib.ReduceAll
import Idealize.ShloMosaic.Lib.Affine

set_option maxRecDepth 16384

noncomputable section

open Idealize.ShloMosaic Idealize.ShloMosaic.TcCoe Idealize.SL.Sem Idealize.ShloMosaic.ValueIdx Cert.RealLift

namespace Cert.Finite

instance : Subsingleton Cert.Pre_finite_inputs.S_.Idx := ⟨fun a b => funext fun d => d.elim0⟩

/-- The f32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt (x : EReal) (h : Ideal.cmp .olt (max x (-x)) (⊤ : EReal) = 1#1) : x = ((x.toReal : ℝ) : EReal) := by
  have hlt : max x (-x) < ⊤ := by
    unfold Ideal.cmp at h
    by_contra hn
    simp [hn] at h
  have h1 : x ≠ ⊤ := fun e => by rw [e] at hlt; simp at hlt
  have h2 : x ≠ ⊥ := fun e => by rw [e] at hlt; simp at hlt
  exact (EReal.coe_toReal h1 h2).symm

/-- One `|x| < inf` comparison of the precondition, read at an entry. -/
theorem entry_real {s : Shape} (X : FVec Ideal s .f32) (hb : Cert.Pre_finite_inputs.S_.BroadcastsInDim s ![]) (i : s.Idx)
    (e : cmpf .olt (Host.absf X) (broadcastInDim s ![] hb (constant (F := Ideal) Cert.Pre_finite_inputs.S_ .f32 0x7F800000#32)) i = 1#1) :
    X i = (((X i).toReal : ℝ) : EReal) := by
  refine real_of_abs_lt (X i) ?_
  have : (broadcastInDim s ![] hb (constant (F := Ideal) Cert.Pre_finite_inputs.S_ .f32 0x7F800000#32)) i = (⊤ : EReal) := ofBits_inf
  rw [← this]
  exact e

/-- Under the precondition the six argument arrays on every core are coercions of real arrays. -/
def args_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Blocks.Args m c := by
  have h0 := congrFun (h c) ix0
  dsimp only [Cert.Pre_finite_inputs.fn, Cert.Pre_finite_inputs.fn_part1] at h0
  obtain ⟨h01234, r5⟩ := IntOp.andi_eq_one.mp h0
  obtain ⟨h0123, r4⟩ := IntOp.andi_eq_one.mp h01234
  obtain ⟨h012, r3⟩ := IntOp.andi_eq_one.mp h0123
  obtain ⟨h01, r2⟩ := IntOp.andi_eq_one.mp h012
  obtain ⟨r0, r1⟩ := IntOp.andi_eq_one.mp h01
  exact
    { x1 := fun i => (m ((c.tc : Thread Cert.KernelIdeal.nD Cert.KernelIdeal.τ).loc Cert.KernelIdeal.main_arg0) i).toReal
      x2 := fun i => (m ((c.tc : Thread Cert.KernelIdeal.nD Cert.KernelIdeal.τ).loc Cert.KernelIdeal.main_arg1) i).toReal
      wq := fun i => (m ((c.tc : Thread Cert.KernelIdeal.nD Cert.KernelIdeal.τ).loc Cert.KernelIdeal.main_arg2) i).toReal
      bq := fun i => (m ((c.tc : Thread Cert.KernelIdeal.nD Cert.KernelIdeal.τ).loc Cert.KernelIdeal.main_arg3) i).toReal
      wk := fun i => (m ((c.tc : Thread Cert.KernelIdeal.nD Cert.KernelIdeal.τ).loc Cert.KernelIdeal.main_arg4) i).toReal
      bk := fun i => (m ((c.tc : Thread Cert.KernelIdeal.nD Cert.KernelIdeal.τ).loc Cert.KernelIdeal.main_arg5) i).toReal
      h0 := fun i => entry_real _ _ i (Host.reduce_andi_all _ _ _ _ _ r0 i)
      h1 := fun i => entry_real _ _ i (Host.reduce_andi_all _ _ _ _ _ r1 i)
      h2 := fun i => entry_real _ _ i (Host.reduce_andi_all _ _ _ _ _ r2 i)
      h3 := fun i => entry_real _ _ i (Host.reduce_andi_all _ _ _ _ _ r3 i)
      h4 := fun i => entry_real _ _ i (Host.reduce_andi_all _ _ _ _ _ r4 i)
      h5 := fun i => entry_real _ _ i (Host.reduce_andi_all _ _ _ _ _ r5 i) }

end Cert.Finite

end
-- ==== Proof.lean ====
/-
  The certificate's assembly.

  The kernel computes, per batch, projections `q = x1·Wq + bq`, `k = x2·Wk + bk`, scores `qk = q·kᵀ`, weights
  `w = exp (tanh qk)`, and returns `(Σ_s w·qk) / (Σ_s w + ε)` — the sums over the query positions `s` accumulated over four
  blocks of 512 positions in scratch buffers carried across grid points, every matrix product fed to the matrix unit as
  three passes over a bf16 part and the remainder after it.  The reference divides each weight by `Σ_s w + ε` first and
  sums `w/(…)·qk` afterwards.  At the ideal values, on finite inputs, a value's bf16 part is the value and the remainder
  is zero, so the three passes are one product; and over the reals a quotient distributes over a finite sum.  Both
  programs end at the coercion of the same real array (Proof/Spec.lean).

  The three frames are the generated ones (the reference's is its generated run with the result dropped); `preserves`
  restates the four places where a narrowing to bf16 followed by the widening back was printed as the identity.
-/
import proofs.«119709_j28793460752827_2_alg».proof.Defs
import proofs.«119709_j28793460752827_2_alg».proof.Proof.Gen.Kernel
import proofs.«119709_j28793460752827_2_alg».proof.Proof.Gen.Kernel.Skeleton
import proofs.«119709_j28793460752827_2_alg».proof.Proof.Gen.Kernel.Launch
import proofs.«119709_j28793460752827_2_alg».proof.Proof.Gen.Kernel.Points
import proofs.«119709_j28793460752827_2_alg».proof.Proof.Gen.Kernel.Frame
import proofs.«119709_j28793460752827_2_alg».proof.Proof.Gen.KernelIdeal
import proofs.«119709_j28793460752827_2_alg».proof.Proof.Gen.KernelIdeal.Skeleton
import proofs.«119709_j28793460752827_2_alg».proof.Proof.Gen.KernelIdeal.Launch
import proofs.«119709_j28793460752827_2_alg».proof.Proof.Gen.KernelIdeal.Points
import proofs.«119709_j28793460752827_2_alg».proof.Proof.Gen.KernelIdeal.Frame
import proofs.«119709_j28793460752827_2_alg».proof.Proof.Gen.ReferenceIdeal
import proofs.«119709_j28793460752827_2_alg».proof.Proof.Gen.ReferenceIdeal.Run
import proofs.«119709_j28793460752827_2_alg».proof.Proof.Gen.ReferenceIdeal.Read
import proofs.«119709_j28793460752827_2_alg».proof.Proof.Gen.Pre_finite_inputs
import proofs.«119709_j28793460752827_2_alg».proof.Proof.KernelResult
import proofs.«119709_j28793460752827_2_alg».proof.Proof.RefValue
import proofs.«119709_j28793460752827_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's four entries: a narrowing to bf16 followed by the widening back is the identity at the ideal values. -/
theorem preserves : Cert.preserves_Kernel_KernelIdeal :=
  ⟨IdealRules.truncf_extf.statement _ _ _, IdealRules.truncf_extf.statement _ _ _,
   IdealRules.truncf_extf.statement _ _ _, IdealRules.truncf_extf.statement _ _ _⟩

/-- Under the precondition the arguments are finite; the kernel's result array then ends at the specification's `out`
    of their real parts (Proof/KernelResult.lean), and the reference's result, of arguments that agree, at the same
    (Proof/RefValue.lean). -/
theorem algebraic : Cert.algebraic_KernelIdeal_ReferenceIdeal := by
  intro m ρ m' ρ' hpre hagree
  refine ⟨fun c => Cert.KernelIdeal.Result.resultOf (Cert.Finite.args_of_pre m hpre c),
    Cert.KernelIdeal.Result.run m ρ (Cert.Finite.args_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2.1,
    (hagree c).2.2.2.2.1, (hagree c).2.2.2.2.2]
  exact funext fun i => Cert.ReferenceIdeal.RefValue.result_isR (Cert.Finite.args_of_pre m hpre c).h0
    (Cert.Finite.args_of_pre m hpre c).h1 (Cert.Finite.args_of_pre m hpre c).h2 (Cert.Finite.args_of_pre m hpre c).h3
    (Cert.Finite.args_of_pre m hpre c).h4 (Cert.Finite.args_of_pre m hpre c).h5 i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
